-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16384 : Shape := ⟨2, ![512, 16384]⟩
abbrev S16384x128 : Shape := ⟨2, ![16384, 128]⟩
abbrev S16385 : Shape := ⟨1, ![16385]⟩
abbrev S1048576 : Shape := ⟨1, ![1048576]⟩
abbrev S_ : Shape := ⟨0, ![]⟩

class Facts : Prop where
  bcast_S_S512x16384 : S_.BroadcastsInDim S512x16384 (![] : Fin 0 → Fin S512x16384.rank)
  reducesTo_S512x16384_S_d0_1 : S512x16384.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S512x16384 .f32) (main_arg1 : FVec F S16384x128 .f32) (main_arg2 : FVec F S16384x128 .f32) (main_arg3 : IVec S16385 32) (main_arg4 : IVec S1048576 32) : IVec S_ 1 :=
  let main_v0 : FVec F S512x16384 .f32 := Host.absf main_arg0
  let main_cst : FVec F S_ .f32 := constant S_ .f32 0x7F800000#32
  let main_v1 : FVec F S512x16384 .f32 := broadcastInDim S512x16384 ![] bcast_S_S512x16384 main_cst
  let main_v2 : IVec S512x16384 1 := cmpf .olt main_v0 main_v1
  let main_c : IVec S_ 1 := constantI S_ 1 1#1
  let main_v3 : IVec S_ 1 := (fun x v => Host.reduce IntOp.andi x v reducesTo_S512x16384_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384x128 .f32 := Host.absf main_arg2
  let main_cst_2 : FVec F S_ .f32 := constant S_ .f32 0x7F800000#32
  let main_v10 : FVec F S16384x128 .f32 := broadcastInDim S16384x128 ![] bcast_S_S16384x128 main_cst_2
  let main_v11 : IVec S16384x128 1 := cmpf .olt main_v9 main_v10
  let main_c_3 : IVec S_ 1 := constantI S_ 1 1#1
  let main_v12 : IVec S_ 1 := (fun x v => Host.reduce IntOp.andi x v reducesTo_S16384x128_S_d0_1 h_S_) main_v11 main_c_3
  let main_v13 : IVec S_ 1 := andi main_v8 main_v12
  main_v13
-- ==== Kernel.lean ====
abbrev S512x16384 : Shape := ⟨2, ![512, 16384]⟩
abbrev S16384x128 : Shape := ⟨2, ![16384, 128]⟩
abbrev S16385 : Shape := ⟨1, ![16385]⟩
abbrev S1048576 : Shape := ⟨1, ![1048576]⟩
abbrev S_ : Shape := ⟨0, ![]⟩
abbrev S16384 : Shape := ⟨1, ![16384]⟩
abbrev S1048576x1 : Shape := ⟨2, ![1048576, 1]⟩
abbrev S1x16384 : Shape := ⟨2, ![1, 16384]⟩
abbrev S512x128 : Shape := ⟨2, ![512, 128]⟩
abbrev S512x2048 : Shape := ⟨2, ![512, 2048]⟩
abbrev S2048x128 : Shape := ⟨2, ![2048, 128]⟩
abbrev S4096x128 : Shape := ⟨2, ![4096, 128]⟩
abbrev S1x4096 : Shape := ⟨2, ![1, 4096]⟩
abbrev S512x4096 : Shape := ⟨2, ![512, 4096]⟩

abbrev nBuf : Space → Nat
  | .hbm => 25
  | .vmem => 13
  | .smem => 0
  | _ => 0

abbrev bufTy : (tb : Table) → Fin (tcTables nBuf tb) → BufTy
  | .hbm, ⟨0, _⟩ => ⟨S512x16384, .f32⟩
  | .hbm, ⟨1, _⟩ => ⟨S16384x128, .f32⟩
  | .hbm, ⟨2, _⟩ => ⟨S16384x128, .f32⟩
  | .hbm, ⟨3, _⟩ => ⟨S16385, .i32⟩
  | .hbm, ⟨4, _⟩ => ⟨S1048576, .i32⟩
  | .hbm, ⟨5, _⟩ => ⟨S_, .f32⟩
  | .hbm, ⟨6, _⟩ => ⟨S16384, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S_, .f32⟩
  | .hbm, ⟨16, _⟩ => ⟨S1048576, .f32⟩
  | .hbm, ⟨17, _⟩ => ⟨S16384, .f32⟩
  | .hbm, ⟨18, _⟩ => ⟨S1x16384, .f32⟩
  | .hbm, ⟨19, _⟩ => ⟨S512x16384, .bf16⟩
  | .hbm, ⟨20, _⟩ => ⟨S16384x128, .bf16⟩
  | .hbm, ⟨21, _⟩ => ⟨S16384x128, .bf16⟩
  | .hbm, ⟨22, _⟩ => ⟨S512x128, .f32⟩
  | .hbm, ⟨23, _⟩ => ⟨S512x128, .bf16⟩
  | .hbm, ⟨24, _⟩ => ⟨S512x16384, .f32⟩
  | .local _ .vmem, ⟨0, _⟩ => ⟨S512x2048, .bf16⟩
  | .local _ .vmem, ⟨1, _⟩ => ⟨S512x2048, .bf16⟩
  | .local _ .vmem, ⟨2, _⟩ => ⟨S2048x128, .bf16⟩
  | .local _ .vmem, ⟨3, _⟩ => ⟨S2048x128, .bf16⟩
  | .local _ .vmem, ⟨4, _⟩ => ⟨S512x128, .f32⟩
  | .local _ .vmem, ⟨5, _⟩ => ⟨S512x128, .f32⟩
  | .local _ .vmem, ⟨6, _⟩ => ⟨S512x128, .bf16⟩
  | .local _ .vmem, ⟨7, _⟩ => ⟨S4096x128, .bf16⟩
  | .local _ .vmem, ⟨8, _⟩ => ⟨S4096x128, .bf16⟩
  | .local _ .vmem, ⟨9, _⟩ => ⟨S1x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S512x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S16384 : S_.BroadcastsInDim S16384 (![] : Fin 0 → Fin S16384.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  shapeCasts_S16384_S1x16384 : S16384.ShapeCasts S1x16384
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  scatter_S16384_S1048576x1_S1048576_n_0_0_1_wf : ScatterDims.WF S16384 S1048576x1 S1048576 [] [0] [0] 1
  dot_S512x2048_S2048x128_S512x128_1_0_0_1_n_n_wf : DotDims.WF S512x2048 S2048x128 S512x128 [1] [0] [0] [1] [] []
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S512x16384.size a
  hwx0_0 : ∀ i : grid0.Coords, EltTy.bits .bf16 = 32 ∨ (Rect.block (s := S512x16384) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S16384x128.size a
  hwx0_1 : ∀ i : grid0.Coords, EltTy.bits .bf16 = 32 ∨ (Rect.block (s := S16384x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .bf16 = 32 ∨ (Rect.block (s := S512x128) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S16384x128.size a
  hwx1_1 : ∀ i : grid1.Coords, EltTy.bits .bf16 = 32 ∨ (Rect.block (s := S16384x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x16384.size a
  hwx1_2 : ∀ i : grid1.Coords, EltTy.bits .f32 = 32 ∨ (Rect.block (s := S1x16384) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S512x16384.size a
  hwx1_3 : ∀ i : grid1.Coords, EltTy.bits .f32 = 32 ∨ (Rect.block (s := S512x16384) S512x4096.size (cc1_transform_3 i) (hinb1_3 i)).WholeWords (EltTy.packing .f32)

variable [Facts₀]

def scatter_S16384_S1048576x1_S1048576_n_0_0_1 : ScatterDims S16384 S1048576x1 S1048576 where
  updateWindowDims := []
  insertedWindowDims := [0]
  scatterDimsToOperandDims := [0]
  indexVectorDim := 1
  wf := scatter_S16384_S1048576x1_S1048576_n_0_0_1_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x16384 : Shape := ⟨2, ![512, 16384]⟩
abbrev S16384x128 : Shape := ⟨2, ![16384, 128]⟩
abbrev S16385 : Shape := ⟨1, ![16385]⟩
abbrev S1048576 : Shape := ⟨1, ![1048576]⟩
abbrev S512x128 : Shape := ⟨2, ![512, 128]⟩
abbrev S128x16384 : Shape := ⟨2, ![128, 16384]⟩
abbrev S_ : Shape := ⟨0, ![]⟩
abbrev S16384 : Shape := ⟨1, ![16384]⟩
abbrev S1048576x1 : Shape := ⟨2, ![1048576, 1]⟩
abbrev S1x16384 : Shape := ⟨2, ![1, 16384]⟩

abbrev nBuf : Space → Nat
  | .hbm => 26
  | .vmem => 0
  | .smem => 0
  | _ => 0

abbrev bufTy : (tb : Table) → Fin (tcTables nBuf tb) → BufTy
  | .hbm, ⟨0, _⟩ => ⟨S512x16384, .f32⟩
  | .hbm, ⟨1, _⟩ => ⟨S16384x128, .f32⟩
  | .hbm, ⟨2, _⟩ => ⟨S16384x128, .f32⟩
  | .hbm, ⟨3, _⟩ => ⟨S16385, .i32⟩
  | .hbm, ⟨4, _⟩ => ⟨S1048576, .i32⟩
  | .hbm, ⟨5, _⟩ => ⟨S512x128, .f32⟩
  | .hbm, ⟨6, _⟩ => ⟨S128x16384, .f32⟩
  | .hbm, ⟨7, _⟩ => ⟨S512x16384, .f32⟩
  | .hbm, ⟨8, _⟩ => ⟨S_, .i1⟩
  | .hbm, ⟨9, _⟩ => ⟨S16384, .i1⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S_, .i1⟩
  | .hbm, ⟨19, _⟩ => ⟨S1048576, .i1⟩
  | .hbm, ⟨20, _⟩ => ⟨S16384, .i1⟩
  | .hbm, ⟨21, _⟩ => ⟨S1x16384, .i1⟩
  | .hbm, ⟨22, _⟩ => ⟨S_, .f32⟩
  | .hbm, ⟨23, _⟩ => ⟨S512x16384, .f32⟩
  | .hbm, ⟨24, _⟩ => ⟨S512x16384, .i1⟩
  | .hbm, ⟨25, _⟩ => ⟨S512x16384, .f32⟩
  | _, _ => ⟨S512x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_call0_v0 : Ref sig .tc := ⟨.hbm, 24, rfl⟩
abbrev main_v14 : Ref sig .tc := ⟨.hbm, 25, rfl⟩

abbrev nD : Nat := 1
abbrev τ : Topo := Topo.v7x

variable {F : FTy → Type} [FloatOps F]

class Facts₀ : Prop where
  transposes_S16384x128_S128x16384_1_0 : S16384x128.Transposes [1, 0] S128x16384
  bcast_S_S16384 : S_.BroadcastsInDim S16384 (![] : Fin 0 → Fin S16384.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S16384_S1x16384_1 : S16384.BroadcastsInDim S1x16384 (![1] : Fin 1 → Fin S1x16384.rank)
  bcast_S_S512x16384 : S_.BroadcastsInDim S512x16384 (![] : Fin 0 → Fin S512x16384.rank)
  bcast_S1x16384_S512x16384_0_1 : S1x16384.BroadcastsInDim S512x16384 (![0, 1] : Fin 2 → Fin S512x16384.rank)
  dot_S512x16384_S16384x128_S512x128_1_0_0_1_n_n_wf : DotDims.WF S512x16384 S16384x128 S512x128 [1] [0] [0] [1] [] []
  dot_S512x128_S128x16384_S512x16384_1_0_0_1_n_n_wf : DotDims.WF S512x128 S128x16384 S512x16384 [1] [0] [0] [1] [] []
  scatter_S16384_S1048576x1_S1048576_n_0_0_1_wf : ScatterDims.WF S16384 S1048576x1 S1048576 [] [0] [0] 1

variable [Facts₀]

def dot_S512x16384_S16384x128_S512x128_1_0_0_1_n_n : DotDims S512x16384 S16384x128 S512x128 where
  lhsContracting := [1]
  rhsContracting := [0]
  lhsNonContracting := [0]
  rhsNonContracting := [1]
  lhsBatch := []
  rhsBatch := []
  wf := dot_S512x16384_S16384x128_S512x128_1_0_0_1_n_n_wf
def dot_S512x128_S128x16384_S512x16384_1_0_0_1_n_n : DotDims S512x128 S128x16384 S512x16384 where
  lhsContracting := [1]
  rhsContracting := [0]
  lhsNonContracting := [0]
  rhsNonContracting := [1]
  lhsBatch := []
  rhsBatch := []
  wf := dot_S512x128_S128x16384_S512x16384_1_0_0_1_n_n_wf
def scatter_S16384_S1048576x1_S1048576_n_0_0_1 : ScatterDims S16384 S1048576x1 S1048576 where
  updateWindowDims := []
  insertedWindowDims := [0]
  scatterDimsToOperandDims := [0]
  indexVectorDim := 1
  wf := scatter_S16384_S1048576x1_S1048576_n_0_0_1_wf

class Facts : Prop extends Facts₀ where

variable [Facts]
-- ==== Proof.KRegion0Run.lean ====
/-
  The first pallas_call (`pre = x · U`, accumulated over eight grid points, one per band of 2048 of the contracted
  axis): an accumulator kept in a scratch buffer between grid points. At the first point the body zeroes the
  accumulator; at every point it adds the band's product `x_band · U_band` into it and copies it whole to the
  output window's staging buffer (written back after the last point only). Here: the body's two control cases run
  symbolically, what each leaves in the output buffer and in the accumulator, the accumulation point by point, the
  proof data of the pipeline at a parameter `V` (the buffers' contents when the region is entered), the region
  invariant that carries the accumulator, and the body obligation.
-/
import proofs.«171692_j26250840113208_1_alg».proof.Proof.Gen.Kernel.Launch
import proofs.«171692_j26250840113208_1_alg».proof.Proof.Gen.Kernel.Skeleton
import proofs.«171692_j26250840113208_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (a band of 2048 columns of `x`) holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (a band of 2048 rows of `U`) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (zero the accumulator), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid's eight points. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores the output at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev VO0_2 : View sig .tc .vmem S512x128 .f32 := (Memref.whole cc0_stg2_0 : Memref sig .tc .vmem S512x128 .f32).view
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S512x128 .f32 := Memref.whole cc0_scratch0
abbrev VS0_0 : View sig .tc .vmem S512x128 .f32 := scM0_0.view

/-- The core's other scoped buffers (the second pallas_call's seven staging buffers), each whole at some contents:
    what the region holds beside the accumulator and never touches. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's plain invariant with the accumulator as a memref owned at some contents, beside the other scoped
    buffers and the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The body, run symbolically in each of its two cases -/

set_option maxHeartbeats 1000000 in
/-- The first point (the conditional taken): from the two input blocks, the output buffer and the accumulator at
    anything, the body runs to the continuation with the inputs as they were and the output buffer and the accumulator
    each with its stores written; the stores found are the witness. -/
noncomputable def kernelRun0_A (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__prematmul_kernel i arg1 harg1 arg2 harg2 arg3 harg3 arg4 harg4) K } := by
  refine ⟨?_, ?_, fun E K => ?run⟩
  case run =>
    simp only [cc0__prematmul_kernel_eq_skeleton]; unfold cc0__prematmul_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

set_option maxHeartbeats 1000000 in
/-- A later point (the conditional not taken): the same from the accumulator at the contents `xs0` the point before left. -/
noncomputable def kernelRun0_B (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__prematmul_kernel i arg1 harg1 arg2 harg2 arg3 harg3 arg4 harg4) K } := by
  refine ⟨?_, ?_, fun E K => ?run⟩
  case run =>
    simp only [cc0__prematmul_kernel_eq_skeleton]; unfold cc0__prematmul_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.KRegion0.lean ====
/-
  The first pallas_call, continued: what each of the body's two cases leaves in the output window's buffer and in
  the accumulator, the accumulation point by point (`outsAt0`: after point 0 the case of the zeroed accumulator;
  after point n + 1 the other case over what point n left in the accumulator), the region invariant carrying the
  accumulator between points, the pipeline's proof data at the entry contents `V`, and the body obligation.
-/
import proofs.«171692_j26250840113208_1_alg».proof.Proof.Gen.Kernel.Launch
import proofs.«171692_j26250840113208_1_alg».proof.Proof.Gen.Kernel.Skeleton
import proofs.«171692_j26250840113208_1_alg».proof.Proof.Gen.Kernel.Points
import proofs.«171692_j26250840113208_1_alg».proof.Proof.KRegion0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point's stores into the output buffer cover it (one store of the whole block). -/
theorem cover0_A_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) (y : S512x128.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x128.size (by sl_kernel_rfl) y

/-- What the first point leaves in the output buffer. -/
def out0_A_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) : Vec F S512x128 .f32 :=
  VO0_2.read (Elt F) (VO0_2.writes (Elt F) VO0_2.junk (kernelRun0_A c i arg1 harg1 arg2 harg2 arg3 harg3 arg4 harg4 hc0 x0 x1).1)

/-- The first point's stores into the accumulator cover it. -/
theorem scover0_A_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) (y : S512x128.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S512x128.size (by sl_kernel_rfl) y

/-- What the first point leaves in the accumulator. -/
def sout0_A_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) : Vec F S512x128 .f32 :=
  VS0_0.read (Elt F) (VS0_0.writes (Elt F) VS0_0.junk (kernelRun0_A c i arg1 harg1 arg2 harg2 arg3 harg3 arg4 harg4 hc0 x0 x1).2.1)

/-- A later point's stores into the output buffer cover it. -/
theorem cover0_B_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) (y : S512x128.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S512x128.size (by sl_kernel_rfl) y

/-- What a later point leaves in the output buffer. -/
def out0_B_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) : Vec F S512x128 .f32 :=
  VO0_2.read (Elt F) (VO0_2.writes (Elt F) VO0_2.junk (kernelRun0_B c i arg1 harg1 arg2 harg2 arg3 harg3 arg4 harg4 hc0 x0 x1 xs0).1)

/-- A later point's stores into the accumulator cover it. -/
theorem scover0_B_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) (y : S512x128.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S512x128.size (by sl_kernel_rfl) y

/-- What a later point leaves in the accumulator. -/
def sout0_B_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) : Vec F S512x128 .f32 :=
  VS0_0.read (Elt F) (VS0_0.writes (Elt F) VS0_0.junk (kernelRun0_B c i arg1 harg1 arg2 harg2 arg3 harg3 arg4 harg4 hc0 x0 x1 xs0).2.1)

/-! ## The accumulation, point by point -/

/-- The conditional is taken at position 0 and at no later position. -/
theorem hc_zero (hn : 0 < cfg0.N) : cond0_0 (grid0.coords ⟨0, hn⟩) := (hcond0_0 ⟨0, hn⟩).mpr rfl
theorem hc_succ (n : ℕ) (hn : n + 1 < cfg0.N) : ¬cond0_0 (grid0.coords ⟨n + 1, hn⟩) :=
  fun h => absurd ((hcond0_0 ⟨n + 1, hn⟩).mp h) (Nat.succ_ne_zero n)

/-- What the output window's staging buffer and the accumulator hold after the body at position `n` (the output
    first): at position 0 the first case at the point's input blocks; at `n + 1` the other case at the point's
    input blocks over what position `n` left in the accumulator. -/
def outsAt0 (c : Dev nD) : (n : ℕ) → n < cfg0.N → Vec F S512x128 .f32 × Vec F S512x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hc_zero hn) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hc_zero hn) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hc_succ n hn) (iblk0 V c 0 ⟨n + 1, hn⟩) (iblk0 V c 1 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hc_succ n hn) (iblk0 V c 0 ⟨n + 1, hn⟩) (iblk0 V c 1 ⟨n + 1, hn⟩) (outsAt0 c n (Nat.lt_of_succ_lt hn)).2)

/-- The region invariant before position `n`: before the first point the plain one (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

/-! ## The pipeline's proof data -/

/-- The proof data of the first pipeline on core `c`: the arrays as the region finds them; after the body at point `t`
    each input's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; at the first point the invariant hands the body the
    accumulator at anything, afterwards at what the point before left; the case's run applies; the invariant takes the
    accumulator back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [PhiS_castSucc V c t]
  obtain ⟨n, hn⟩ := t
  cases n with
  | zero =>
    rw [PhiS_zero V c _ _ rfl, PhiA0_eq]
    rw [show outsAt0 V c (⟨0, hn⟩ : Fin cfg0.N).val (⟨0, hn⟩ : Fin cfg0.N).isLt = outsAt0 V c 0 hn from rfl]
    unfold outsAt0 out0_A_2 sout0_A_0; (try dsimp only)
    iintro ⟨⟨⟨HS0, HR⟩, Hg⟩, Ho, ⟨%d0, H0⟩, ⟨%d1, H1⟩, ⟨%d2, H2⟩⟩
    iapply ((kernelRun0_A c (grid0.coords ⟨0, hn⟩) _ _ _ _ _ _ _ _ (hc_zero hn) (iblk0 V c 0 ⟨0, hn⟩) (iblk0 V c 1 ⟨0, hn⟩)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitr [HR]
        swap; · iexact HR
        unfold owns; iexists _; isplitr
        swap; · iexact HS0
        ipureintro; exact View.read_writes_of_cover _ _ _ _ _ (scover0_A_0 c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  | succ n =>
    rw [show PhiS V c (⟨n + 1, hn⟩ : Fin cfg0.N).val (Nat.le_of_lt (⟨n + 1, hn⟩ : Fin cfg0.N).isLt) = PhiS V c (n + 1) (Nat.le_of_lt hn) from rfl, PhiS_succ]
    rw [show outsAt0 V c (⟨n + 1, hn⟩ : Fin cfg0.N).val (⟨n + 1, hn⟩ : Fin cfg0.N).isLt = outsAt0 V c (n + 1) hn from rfl]
    conv => rhs; unfold outsAt0
    unfold out0_B_2 sout0_B_0; (try dsimp only)
    iintro ⟨⟨⟨HS0, HR⟩, Hg⟩, Ho, ⟨%d0, H0⟩, ⟨%d1, H1⟩, ⟨%d2, H2⟩⟩
    iapply ((kernelRun0_B c (grid0.coords ⟨n + 1, hn⟩) _ _ _ _ _ _ _ _ (hc_succ n hn) (iblk0 V c 0 ⟨n + 1, hn⟩) (iblk0 V c 1 ⟨n + 1, hn⟩) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitr [HR]
        swap; · iexact HR
        unfold owns; iexists _; isplitr
        swap; · iexact HS0
        ipureintro; exact View.read_writes_of_cover _ _ _ _ _ (scover0_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (7 + 1) (by rw [show cfg0.N = 8 from N_0]) from rfl, PhiS_succ, PhiA0_eq]
  iintro ⟨⟨HS0, HR⟩, Hg⟩
  isplitl [HS0 HR]
  · isplitl [HS0]
    · iexists _; iexact HS0
    iexact HR
  iexact Hg

end Cert.Kernel.Hand

end
-- ==== Proof.KRegion1.lean ====
/-
  The second pallas_call (the masked product `pre · Vᵀ`, four grid points, one per band of 4096 output columns):
  what its body leaves in the output window's staging buffer as a function of the three input blocks at the
  point, the body's triple, the proof data of its pipeline at a parameter `V` (the buffers' contents when the
  region is entered) and the body obligation. The body keeps nothing between points: every point reads its three
  input blocks (the whole `pre`, a band of 4096 rows of `V`, the band's 4096 mask entries) and stores the whole
  512×4096 output block.
-/
import proofs.«171692_j26250840113208_1_alg».proof.Proof.Gen.Kernel.Launch
import proofs.«171692_j26250840113208_1_alg».proof.Proof.Gen.Kernel.Skeleton
import proofs.«171692_j26250840113208_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved): window 0, the whole of `pre`, fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1, a band of 4096 rows of `V`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2, the band's 4096 mask entries. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x128 := Rect.unit (s := S512x128) ![0, 0] S512x128.size inb_S512x128_S512x128_0_0
abbrev r1_1 : Rect S4096x128 := Rect.unit (s := S4096x128) ![0, 0] S4096x128.size inb_S4096x128_S4096x128_0_0
abbrev r1_2 : Rect S1x4096 := Rect.unit (s := S1x4096) ![0, 0] S1x4096.size inb_S1x4096_S1x4096_0_0
abbrev r1_3 : Rect S512x4096 := Rect.unit (s := S512x4096) ![0, 0] S512x4096.size inb_S512x4096_S512x4096_0_0

/-! ## What the body leaves in the output window's buffer -/

/-- The output window's staging buffer after the body, from the three input blocks: its one store, of the whole
    block, of the masked product of the loaded blocks. -/
def out1_3 (x0 : Vec F S512x128 .bf16) (x1 : Vec F S4096x128 .bf16) (x2 : Vec F S1x4096 .f32) : Vec F S512x4096 .f32 :=
  View.canon [⟨r1_3, k1_pay1 (View.ld x0 r1_0) (View.ld x1 r1_1) (View.ld x2 r1_2)⟩]

/-- The one store is of the whole block, so it covers it. -/
theorem cover1_3 (p0 : Vec F S512x4096 .f32) (y : S512x4096.Idx) :
    ∃ pc ∈ ([⟨r1_3, p0⟩] : List (View.Piece (Elt F) S512x4096 .f32)), y ∈ pc.1.set :=
  View.cover_of_tiled [⟨r1_3, p0⟩] S512x4096.size (by rfl) y

/-! ## The body's triple -/

set_option maxHeartbeats 1000000 in
/-- The kernel body on whole staging memrefs, the inputs' at read contents `x0 x1 x2` and the output's at anything, runs
    to the continuation holding the inputs' as they were and the output's at `out1_3` of them. -/
theorem sound_kernel1 (c : Dev nD) (E : Set ℕ) (i : grid1.Coords)
    (arg1 : Memref sig .tc .vmem S512x128 .bf16) (harg1 : arg1.IsWhole) (arg2 : Memref sig .tc .vmem S4096x128 .bf16) (harg2 : arg2.IsWhole)
    (arg3 : Memref sig .tc .vmem S1x4096 .f32) (harg3 : arg3.IsWhole) (arg4 : Memref sig .tc .vmem S512x4096 .f32) (harg4 : arg4.IsWhole)
    (x0 : Vec F S512x128 .bf16) (x1 : Vec F S4096x128 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__postmatmul_kernel i arg1 harg1 arg2 harg2 arg3 harg3 arg4 harg4) K := by
  simp only [cc1__postmatmul_kernel_eq_skeleton]; unfold cc1__postmatmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as a run: its host operations and its two pallas_calls in order, the buffers' contents at each
  boundary as a fold from the launch memory (a stretch of host operations applies them; a pallas_call leaves its
  arrays at what its pipeline's write-backs leave and every other buffer as entered), each pallas_call as a segment
  over the thread state "every unscoped buffer at the boundary's contents", and the run itself: every weakly fair
  execution terminates, nothing faulting, with the result array at what the second pipeline's write-backs leave
  and every argument array as launched.
-/
import proofs.«171692_j26250840113208_1_alg».proof.Proof.Gen.Kernel.Launch
import proofs.«171692_j26250840113208_1_alg».proof.Proof.Gen.Kernel.Skeleton
import proofs.«171692_j26250840113208_1_alg».proof.Proof.Gen.Kernel.Points
import proofs.«171692_j26250840113208_1_alg».proof.Proof.Gen.Kernel.Regions
import proofs.«171692_j26250840113208_1_alg».proof.Proof.KRegion0
import proofs.«171692_j26250840113208_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first stretch of host operations (the first pallas_call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second pallas_call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation and no pallas_call writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-- The result array ends at what the second pipeline's write-backs leave. -/
theorem W4_main_v15 (c : Dev nD) : W4 m c (Proc.devRef .tc main_v15) = (dat1 (V3 m) c).arrAt 3 cfg1.N :=
  W4_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call over the thread state: entered with every unscoped buffer at the contents after the first
    stretch of host operations, left with its result array at what its pipeline's write-back leaves and every other
    buffer as entered. Its arrays are split out of the unscoped buffers and put back; the accumulator and the other
    scoped buffers are held by the region invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄)
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered with every unscoped buffer at the contents after the
    format change of the first call's result, left with the result array at what its four write-backs leave and every
    other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program
    terminates, nothing faulting, and every final state holds the result array at what the second pipeline's
    write-backs leave and each argument array as launched. -/
theorem run_main : θ_run defs (onTc (τ := τ) (main (F := F))) ⟨m, fun _ => 0, ρ⟩ (fun r => ∀ c : Dev nD,
      r.2.mem ((c.tc : Thread nD τ).loc main_v15) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v15 (by decide))).trans (W4_main_v15 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Hand

end
-- ==== Proof.KIRegion0Run.lean ====
/-
  The first pallas_call (`pre = x · U`, accumulated over eight grid points, one per band of 2048 of the contracted
  axis): an accumulator kept in a scratch buffer between grid points. At the first point the body zeroes the
  accumulator; at every point it adds the band's product `x_band · U_band` into it and copies it whole to the
  output window's staging buffer (written back after the last point only). Here: the body's two control cases run
  symbolically, what each leaves in the output buffer and in the accumulator, the accumulation point by point, the
  proof data of the pipeline at a parameter `V` (the buffers' contents when the region is entered), the region
  invariant that carries the accumulator, and the body obligation.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0 (a band of 2048 columns of `x`) holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1 (a band of 2048 rows of `U`) holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (zero the accumulator), from the grid coordinates. -/
abbrev cond0_0 (i : grid0.Coords) : Prop := (Scalar.cmpi .ne (Scalar.extui (Scalar.cmpi .eq (BitVec.ofNat 32 (i 0).val) 0#32)) 0#32) = 1#1
/-- It holds at the first point only — decided over the grid's eight points. -/
theorem hcond0_0 : ∀ t : Fin cfg0.N, cond0_0 (grid0.coords t) ↔ t.val = 0 :=
  (by decide +kernel : ∀ t : Fin grid0.N, cond0_0 (grid0.coords t) ↔ t.val = 0)

/-- No window is idle at any point: the body stores the output at every point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-! ## The memrefs the body is called with -/

abbrev VO0_2 : View sig .tc .vmem S512x128 .f32 := (Memref.whole cc0_stg2_0 : Memref sig .tc .vmem S512x128 .f32).view
abbrev ms0_0 (t : Fin cfg0.N) : Memref sig .tc .vmem S512x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S512x128 .f32 := Memref.whole cc0_scratch0
abbrev VS0_0 : View sig .tc .vmem S512x128 .f32 := scM0_0.view

/-- The core's other scoped buffers (the second pallas_call's seven staging buffers), each whole at some contents:
    what the region holds beside the accumulator and never touches. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's plain invariant with the accumulator as a memref owned at some contents, beside the other scoped
    buffers and the generator register. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

/-! ## The body, run symbolically in each of its two cases -/

set_option maxHeartbeats 1000000 in
/-- The first point (the conditional taken): from the two input blocks, the output buffer and the accumulator at
    anything, the body runs to the continuation with the inputs as they were and the output buffer and the accumulator
    each with its stores written; the stores found are the witness. -/
noncomputable def kernelRun0_A (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__prematmul_kernel i arg1 harg1 arg2 harg2 arg3 harg3 arg4 harg4) K } := by
  refine ⟨?_, ?_, fun E K => ?run⟩
  case run =>
    simp only [cc0__prematmul_kernel_eq_skeleton]; unfold cc0__prematmul_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

set_option maxHeartbeats 1000000 in
/-- A later point (the conditional not taken): the same from the accumulator at the contents `xs0` the point before left. -/
noncomputable def kernelRun0_B (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) :
    Σ' (L2 : List (View.Piece (Elt F) S512x128 .f32)), { LS0 : List (View.Piece (Elt F) S512x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d)
            ∗ owns (c : Thread nD τ) arg4 fullShare xs0
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__prematmul_kernel i arg1 harg1 arg2 harg2 arg3 harg3 arg4 harg4) K } := by
  refine ⟨?_, ?_, fun E K => ?run⟩
  case run =>
    simp only [cc0__prematmul_kernel_eq_skeleton]; unfold cc0__prematmul_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KIRegion0.lean ====
/-
  The first pallas_call, continued: what each of the body's two cases leaves in the output window's buffer and in
  the accumulator, the accumulation point by point (`outsAt0`: after point 0 the case of the zeroed accumulator;
  after point n + 1 the other case over what point n left in the accumulator), the region invariant carrying the
  accumulator between points, the pipeline's proof data at the entry contents `V`, and the body obligation.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIRegion0Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point's stores into the output buffer cover it (one store of the whole block). -/
theorem cover0_A_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) (y : S512x128.Idx) :
    ∃ pc ∈ (kernelRun0_A c i arg1 harg1 arg2 harg2 arg3 harg3 arg4 harg4 hc0 x0 x1).1, y ∈ pc.1.set :=
  View.cover_of_tiledL (kernelRun0_A c i arg1 harg1 arg2 harg2 arg3 harg3 arg4 harg4 hc0 x0 x1).1 S512x128.size (by sl_kernel_rfl) y

/-- What the first point leaves in the output buffer. -/
def out0_A_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) : Vec F S512x128 .f32 :=
  VO0_2.read (Elt F) (VO0_2.writes (Elt F) VO0_2.junk (kernelRun0_A c i arg1 harg1 arg2 harg2 arg3 harg3 arg4 harg4 hc0 x0 x1).1)

/-- The first point's stores into the accumulator cover it. -/
theorem scover0_A_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) (y : S512x128.Idx) :
    ∃ pc ∈ (kernelRun0_A c i arg1 harg1 arg2 harg2 arg3 harg3 arg4 harg4 hc0 x0 x1).2.1, y ∈ pc.1.set :=
  View.cover_of_tiledL (kernelRun0_A c i arg1 harg1 arg2 harg2 arg3 harg3 arg4 harg4 hc0 x0 x1).2.1 S512x128.size (by sl_kernel_rfl) y

/-- What the first point leaves in the accumulator. -/
def sout0_A_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) : Vec F S512x128 .f32 :=
  VS0_0.read (Elt F) (VS0_0.writes (Elt F) VS0_0.junk (kernelRun0_A c i arg1 harg1 arg2 harg2 arg3 harg3 arg4 harg4 hc0 x0 x1).2.1)

/-- A later point's stores into the output buffer cover it. -/
theorem cover0_B_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) (y : S512x128.Idx) :
    ∃ pc ∈ (kernelRun0_B c i arg1 harg1 arg2 harg2 arg3 harg3 arg4 harg4 hc0 x0 x1 xs0).1, y ∈ pc.1.set :=
  View.cover_of_tiledL (kernelRun0_B c i arg1 harg1 arg2 harg2 arg3 harg3 arg4 harg4 hc0 x0 x1 xs0).1 S512x128.size (by sl_kernel_rfl) y

/-- What a later point leaves in the output buffer. -/
def out0_B_2 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) : Vec F S512x128 .f32 :=
  VO0_2.read (Elt F) (VO0_2.writes (Elt F) VO0_2.junk (kernelRun0_B c i arg1 harg1 arg2 harg2 arg3 harg3 arg4 harg4 hc0 x0 x1 xs0).1)

/-- A later point's stores into the accumulator cover it. -/
theorem scover0_B_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) (y : S512x128.Idx) :
    ∃ pc ∈ (kernelRun0_B c i arg1 harg1 arg2 harg2 arg3 harg3 arg4 harg4 hc0 x0 x1 xs0).2.1, y ∈ pc.1.set :=
  View.cover_of_tiledL (kernelRun0_B c i arg1 harg1 arg2 harg2 arg3 harg3 arg4 harg4 hc0 x0 x1 xs0).2.1 S512x128.size (by sl_kernel_rfl) y

/-- What a later point leaves in the accumulator. -/
def sout0_B_0 (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) : Vec F S512x128 .f32 :=
  VS0_0.read (Elt F) (VS0_0.writes (Elt F) VS0_0.junk (kernelRun0_B c i arg1 harg1 arg2 harg2 arg3 harg3 arg4 harg4 hc0 x0 x1 xs0).2.1)

/-! ## The accumulation, point by point -/

/-- The conditional is taken at position 0 and at no later position. -/
theorem hc_zero (hn : 0 < cfg0.N) : cond0_0 (grid0.coords ⟨0, hn⟩) := (hcond0_0 ⟨0, hn⟩).mpr rfl
theorem hc_succ (n : ℕ) (hn : n + 1 < cfg0.N) : ¬cond0_0 (grid0.coords ⟨n + 1, hn⟩) :=
  fun h => absurd ((hcond0_0 ⟨n + 1, hn⟩).mp h) (Nat.succ_ne_zero n)

/-- What the output window's staging buffer and the accumulator hold after the body at position `n` (the output
    first): at position 0 the first case at the point's input blocks; at `n + 1` the other case at the point's
    input blocks over what position `n` left in the accumulator. -/
def outsAt0 (c : Dev nD) : (n : ℕ) → n < cfg0.N → Vec F S512x128 .f32 × Vec F S512x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hc_zero hn) (iblk0 V c 0 ⟨0, hn⟩) (iblk0 V c 1 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hc_zero hn) (iblk0 V c 0 ⟨0, hn⟩) (iblk0 V c 1 ⟨0, hn⟩))
  | n + 1, hn => (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hc_succ n hn) (iblk0 V c 0 ⟨n + 1, hn⟩) (iblk0 V c 1 ⟨n + 1, hn⟩) (outsAt0 c n (Nat.lt_of_succ_lt hn)).2,
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hc_succ n hn) (iblk0 V c 0 ⟨n + 1, hn⟩) (iblk0 V c 1 ⟨n + 1, hn⟩) (outsAt0 c n (Nat.lt_of_succ_lt hn)).2)

/-- The region invariant before position `n`: before the first point the plain one (the accumulator at anything);
    afterwards the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

/-! ## The pipeline's proof data -/

/-- The proof data of the first pipeline on core `c`: the arrays as the region finds them; after the body at point `t`
    each input's buffer at its block and the output's at `outsAt0`'s first component; the invariant `PhiS`; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; at the first point the invariant hands the body the
    accumulator at anything, afterwards at what the point before left; the case's run applies; the invariant takes the
    accumulator back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [PhiS_castSucc V c t]
  obtain ⟨n, hn⟩ := t
  cases n with
  | zero =>
    rw [PhiS_zero V c _ _ rfl, PhiA0_eq]
    rw [show outsAt0 V c (⟨0, hn⟩ : Fin cfg0.N).val (⟨0, hn⟩ : Fin cfg0.N).isLt = outsAt0 V c 0 hn from rfl]
    unfold outsAt0 out0_A_2 sout0_A_0; (try dsimp only)
    iintro ⟨⟨⟨HS0, HR⟩, Hg⟩, Ho, ⟨%d0, H0⟩, ⟨%d1, H1⟩, ⟨%d2, H2⟩⟩
    iapply ((kernelRun0_A c (grid0.coords ⟨0, hn⟩) _ _ _ _ _ _ _ _ (hc_zero hn) (iblk0 V c 0 ⟨0, hn⟩) (iblk0 V c 1 ⟨0, hn⟩)).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitr [HR]
        swap; · iexact HR
        unfold owns; iexists _; isplitr
        swap; · iexact HS0
        ipureintro; exact View.read_writes_of_cover _ _ _ _ _ (scover0_A_0 c _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _ _ _)
  | succ n =>
    rw [show PhiS V c (⟨n + 1, hn⟩ : Fin cfg0.N).val (Nat.le_of_lt (⟨n + 1, hn⟩ : Fin cfg0.N).isLt) = PhiS V c (n + 1) (Nat.le_of_lt hn) from rfl, PhiS_succ]
    rw [show outsAt0 V c (⟨n + 1, hn⟩ : Fin cfg0.N).val (⟨n + 1, hn⟩ : Fin cfg0.N).isLt = outsAt0 V c (n + 1) hn from rfl]
    conv => rhs; unfold outsAt0
    unfold out0_B_2 sout0_B_0; (try dsimp only)
    iintro ⟨⟨⟨HS0, HR⟩, Hg⟩, Ho, ⟨%d0, H0⟩, ⟨%d1, H1⟩, ⟨%d2, H2⟩⟩
    iapply ((kernelRun0_B c (grid0.coords ⟨n + 1, hn⟩) _ _ _ _ _ _ _ _ (hc_succ n hn) (iblk0 V c 0 ⟨n + 1, hn⟩) (iblk0 V c 1 ⟨n + 1, hn⟩) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 HR Hg]
    · isplitl [HS0 HR]
      · isplitr [HR]
        swap; · iexact HR
        unfold owns; iexists _; isplitr
        swap; · iexact HS0
        ipureintro; exact View.read_writes_of_cover _ _ _ _ _ (scover0_B_0 c _ _ _ _ _ _ _ _ _ _ _ _ _)
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (7 + 1) (by rw [show cfg0.N = 8 from N_0]) from rfl, PhiS_succ, PhiA0_eq]
  iintro ⟨⟨HS0, HR⟩, Hg⟩
  isplitl [HS0 HR]
  · isplitl [HS0]
    · iexists _; iexact HS0
    iexact HR
  iexact Hg

end Cert.KernelIdeal.Hand

end
-- ==== Proof.KIRegion1.lean ====
/-
  The second pallas_call (the masked product `pre · Vᵀ`, four grid points, one per band of 4096 output columns):
  what its body leaves in the output window's staging buffer as a function of the three input blocks at the
  point, the body's triple, the proof data of its pipeline at a parameter `V` (the buffers' contents when the
  region is entered) and the body obligation. The body keeps nothing between points: every point reads its three
  input blocks (the whole `pre`, a band of 4096 rows of `V`, the band's 4096 mask entries) and stores the whole
  512×4096 output block.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched its block index has not moved): window 0, the whole of `pre`, fetched at the first point only. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1, a band of 4096 rows of `V`. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2, the band's 4096 mask entries. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x128 := Rect.unit (s := S512x128) ![0, 0] S512x128.size inb_S512x128_S512x128_0_0
abbrev r1_1 : Rect S4096x128 := Rect.unit (s := S4096x128) ![0, 0] S4096x128.size inb_S4096x128_S4096x128_0_0
abbrev r1_2 : Rect S1x4096 := Rect.unit (s := S1x4096) ![0, 0] S1x4096.size inb_S1x4096_S1x4096_0_0
abbrev r1_3 : Rect S512x4096 := Rect.unit (s := S512x4096) ![0, 0] S512x4096.size inb_S512x4096_S512x4096_0_0

/-! ## What the body leaves in the output window's buffer -/

/-- The output window's staging buffer after the body, from the three input blocks: its one store, of the whole
    block, of the masked product of the loaded blocks. -/
def out1_3 (x0 : Vec F S512x128 .bf16) (x1 : Vec F S4096x128 .bf16) (x2 : Vec F S1x4096 .f32) : Vec F S512x4096 .f32 :=
  View.canon [⟨r1_3, k1_pay1 (View.ld x0 r1_0) (View.ld x1 r1_1) (View.ld x2 r1_2)⟩]

/-- The one store is of the whole block, so it covers it. -/
theorem cover1_3 (p0 : Vec F S512x4096 .f32) (y : S512x4096.Idx) :
    ∃ pc ∈ ([⟨r1_3, p0⟩] : List (View.Piece (Elt F) S512x4096 .f32)), y ∈ pc.1.set :=
  View.cover_of_tiled [⟨r1_3, p0⟩] S512x4096.size (by rfl) y

/-! ## The body's triple -/

set_option maxHeartbeats 1000000 in
/-- The kernel body on whole staging memrefs, the inputs' at read contents `x0 x1 x2` and the output's at anything, runs
    to the continuation holding the inputs' as they were and the output's at `out1_3` of them. -/
theorem sound_kernel1 (c : Dev nD) (E : Set ℕ) (i : grid1.Coords)
    (arg1 : Memref sig .tc .vmem S512x128 .bf16) (harg1 : arg1.IsWhole) (arg2 : Memref sig .tc .vmem S4096x128 .bf16) (harg2 : arg2.IsWhole)
    (arg3 : Memref sig .tc .vmem S1x4096 .f32) (harg3 : arg3.IsWhole) (arg4 : Memref sig .tc .vmem S512x4096 .f32) (harg4 : arg4.IsWhole)
    (x0 : Vec F S512x128 .bf16) (x1 : Vec F S4096x128 .bf16) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__postmatmul_kernel i arg1 harg1 arg2 harg2 arg3 harg3 arg4 harg4) K := by
  simp only [cc1__postmatmul_kernel_eq_skeleton]; unfold cc1__postmatmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of the second pipeline on core `c`: the arrays as the region finds them; after the body at point
    `t` each input's buffer at its block and the output's at `out1_3` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole program as a run: its host operations and its two pallas_calls in order, the buffers' contents at each
  boundary as a fold from the launch memory (a stretch of host operations applies them; a pallas_call leaves its
  arrays at what its pipeline's write-backs leave and every other buffer as entered), each pallas_call as a segment
  over the thread state "every unscoped buffer at the boundary's contents", and the run itself: every weakly fair
  execution terminates, nothing faulting, with the result array at what the second pipeline's write-backs leave
  and every argument array as launched.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.Gen.KernelIdeal.Regions
import proofs.«171692_j26250840113208_1_alg».proof.Proof.KIRegion0
import proofs.«171692_j26250840113208_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m (c, b)
/-- After the first stretch of host operations (the first pallas_call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pallas_call's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second pallas_call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pallas_call's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ### The arguments end as launched: no host operation and no pallas_call writes one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (r := main_arg0) (by decide)
    _ = W1 m c (Proc.devRef .tc main_arg0) := W2_of_ne m c main_arg0 (by decide)
    _ = W0 m c (Proc.devRef .tc main_arg0) := StableHlo.after_of_writes_sub hostOps0 _ hostOps0_writes (r := main_arg0) (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (r := main_arg1) (by decide)
    _ = W1 m c (Proc.devRef .tc main_arg1) := W2_of_ne m c main_arg1 (by decide)
    _ = W0 m c (Proc.devRef .tc main_arg1) := StableHlo.after_of_writes_sub hostOps0 _ hostOps0_writes (r := main_arg1) (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (r := main_arg2) (by decide)
    _ = W1 m c (Proc.devRef .tc main_arg2) := W2_of_ne m c main_arg2 (by decide)
    _ = W0 m c (Proc.devRef .tc main_arg2) := StableHlo.after_of_writes_sub hostOps0 _ hostOps0_writes (r := main_arg2) (by decide)
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := StableHlo.after_of_writes_sub hostOps1 _ hostOps1_writes (r := main_arg3) (by decide)
    _ = W1 m c (Proc.devRef .tc main_arg3) := W2_of_ne m c main_arg3 (by decide)
    _ = W0 m c (Proc.devRef .tc main_arg3) := StableHlo.after_of_writes_sub hostOps0 _ hostOps0_writes (r := main_arg3) (by decide)
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := StableHlo.after_of_writes_sub hostOps1 _ hostOps1_writes (r := main_arg4) (by decide)
    _ = W1 m c (Proc.devRef .tc main_arg4) := W2_of_ne m c main_arg4 (by decide)
    _ = W0 m c (Proc.devRef .tc main_arg4) := StableHlo.after_of_writes_sub hostOps0 _ hostOps0_writes (r := main_arg4) (by decide)
    _ = m ((c : Thread nD τ).loc main_arg4) := rfl

/-- The result array ends at what the second pipeline's write-backs leave. -/
theorem W4_main_v15 (c : Dev nD) : W4 m c (Proc.devRef .tc main_v15) = (dat1 (V3 m) c).arrAt 3 cfg1.N :=
  W4_arr m c 3

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues,
    at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The pallas_calls as segments -/

set_option backward.isDefEq.respectTransparency.types false in
/-- The first pallas_call over the thread state: entered with every unscoped buffer at the contents after the first
    stretch of host operations, left with its result array at what its pipeline's write-back leaves and every other
    buffer as entered. Its arrays are split out of the unscoped buffers and put back; the accumulator and the other
    scoped buffers are held by the region invariant; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    have h2 : (Pipeline.ΦA spec0 c : sProp 𝕄) ⊢ iprop((∃ r, prngReg c r) ∗ (BI.emp : sProp 𝕄)
        ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m) c).trans h2
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call over the thread state: entered with every unscoped buffer at the contents after the
    format change of the first call's result, left with the result array at what its four write-backs leave and every
    other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program
    terminates, nothing faulting, and every final state holds the result array at what the second pipeline's
    write-backs leave and each argument array as launched. -/
theorem run_main : θ_run defs (onTc (τ := τ) (main (F := F))) ⟨m, fun _ => 0, ρ⟩ (fun r => ∀ c : Dev nD,
      r.2.mem ((c.tc : Thread nD τ).loc main_v15) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v15 (by decide))).trans (W4_main_v15 m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Hand

end
-- ==== Proof.KIPieces.lean ====
/-
  What the first pallas_call's body leaves, in closed form. Running the body symbolically found, in each of its two
  cases, the stores into the accumulator and into the output window's buffer; read back, both buffers hold the same
  array: the accumulator's previous contents (all zeros at the first point, where the body has just zeroed it) plus
  the product of the point's two input blocks.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIRegion0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- At the first point the accumulator ends at zero plus the blocks' product. -/
theorem sout0_A_0_eq (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) :
    sout0_A_0 c i arg1 harg1 arg2 harg2 arg3 harg3 arg4 harg4 hc0 x0 x1 = k0_pay2 (k0_pay1 (F := F)) x0 x1 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_cons_unit_zero hz2, View.readCov_unit_zero _ hz2]
  simp only [View.readAt_eq_ld, harg1.read_unread, harg2.read_unread, View.ld_unit_zero (S := S512x2048) hz2, View.ld_unit_zero (S := S2048x128) hz2]

/-- And the output window's buffer holds a copy of it. -/
theorem out0_A_2_eq (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : cond0_0 i)
    (x0 : Vec F S512x2048 .bf16) (x1 : Vec F S2048x128 .bf16) :
    out0_A_2 c i arg1 harg1 arg2 harg2 arg3 harg3 arg4 harg4 hc0 x0 x1 = k0_pay2 (k0_pay1 (F := F)) x0 x1 := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero hz2, View.readCov_cons_toLoadRect, View.readCov_unit_zero _ hz2]
  simp only [View.readAt_eq_ld, harg1.read_unread, harg2.read_unread, View.ld_unit_zero (S := S512x2048) hz2, View.ld_unit_zero (S := S2048x128) hz2]

/-- At a later point the accumulator ends at its previous contents plus the blocks' product. -/
theorem sout0_B_0_eq (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) :
    sout0_B_0 c i arg1 harg1 arg2 harg2 arg3 harg3 arg4 harg4 hc0 x0 x1 xs0 = k0_pay2 xs0 x0 x1 := by
  unfold sout0_B_0
  rw [View.read_writes_eq_canon _ _ _ (scover0_B_0 c i arg1 harg1 arg2 harg2 arg3 harg3 arg4 harg4 hc0 x0 x1 xs0)]
  unfold kernelRun0_B
  dsimp only
  sl_unfold_words
  rw [View.canon_unit_zero hz2]
  simp only [View.readAt_eq_ld, harg1.read_unread, harg2.read_unread, harg4.read_unread, View.ld_unit_zero (S := S512x2048) hz2, View.ld_unit_zero (S := S2048x128) hz2, View.ld_unit_zero (S := S512x128) hz2]

/-- And the output window's buffer holds a copy of it. -/
theorem out0_B_2_eq (c : Dev nD) (i : grid0.Coords) (arg1 : Memref sig .tc .vmem S512x2048 .bf16) (harg1 : arg1.IsWhole)
    (arg2 : Memref sig .tc .vmem S2048x128 .bf16) (harg2 : arg2.IsWhole) (arg3 : Memref sig .tc .vmem S512x128 .f32) (harg3 : arg3.IsWhole)
    (arg4 : Memref sig .tc .vmem S512x128 .f32) (harg4 : arg4.IsWhole) (hc0 : ¬cond0_0 i)
    (x0 : Vec F S512x2048 .bf16) (x1 : Vec F S2048x128 .bf16) (xs0 : Vec F S512x128 .f32) :
    out0_B_2 c i arg1 harg1 arg2 harg2 arg3 harg3 arg4 harg4 hc0 x0 x1 xs0 = k0_pay2 xs0 x0 x1 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero hz2, View.readCov_unit_zero _ hz2]
  simp only [View.readAt_eq_ld, harg1.read_unread, harg2.read_unread, harg4.read_unread, View.ld_unit_zero (S := S512x2048) hz2, View.ld_unit_zero (S := S2048x128) hz2, View.ld_unit_zero (S := S512x128) hz2]

end Cert.KernelIdeal.Hand

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.KIValue0.lean ====
/-
  What the first pallas_call leaves in its result array `pre`. Generic in the float values: the accumulator after
  position n is a fold, a₀ = 0 + x₀·U₀ and aₙ₊₁ = aₙ + xₙ₊₁·Uₙ₊₁ over the bands' blocks, the output window's buffer holds
  a copy of it at every point, and the one write-back (after the last point, of the whole array) leaves the result
  array at a₇. At the ideal values, entry (b, r) of aₙ is the sum over the bands up to n and over the 2048 positions
  inside a band of the products of the blocks' entries: the matrix unit's product into the zero accumulator is the
  plain sum, and adding a band to the running total is adding its sum.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIPieces
import proofs.«171692_j26250840113208_1_alg».proof.Proof.LibPlainDot
import Idealize.ShloMosaic.Lib.Pipeline.Value
import Idealize.ShloMosaic.Lib.ValueIdx
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section Generic
variable (V : (c : Dev nD) → (b : Ref sig .tc) → Buf (Elt F) ((c : Thread nD τ).loc b))

/-- The accumulator after position `n`: the fold of "previous contents plus the band's product" from the zeros. -/
def acc (c : Dev nD) : (n : ℕ) → n < cfg0.N → Vec F S512x128 .f32
  | 0, hn => k0_pay2 (k0_pay1 (F := F)) (iblk0 V c 0 ⟨0, hn⟩) (iblk0 V c 1 ⟨0, hn⟩)
  | n + 1, hn => k0_pay2 (acc c n (Nat.lt_of_succ_lt hn)) (iblk0 V c 0 ⟨n + 1, hn⟩) (iblk0 V c 1 ⟨n + 1, hn⟩)

/-- Both the output window's buffer and the accumulator hold it after position `n`. -/
theorem outsAt0_eq (c : Dev nD) : ∀ (n : ℕ) (hn : n < cfg0.N), outsAt0 V c n hn = (acc V c n hn, acc V c n hn)
  | 0, hn => by
    rw [outsAt0, acc, out0_A_2_eq, sout0_A_0_eq]
  | n + 1, hn => by
    rw [outsAt0, acc, outsAt0_eq c n (Nat.lt_of_succ_lt hn), out0_B_2_eq, sout0_B_0_eq]

/-- The output window's one block is the whole array: its block index is (0, 0) at every point. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem mem_blk0_2 (t : Fin cfg0.N) (i : S512x128.Idx) :
    i ∈ ((cfg0.win 2).blk t).view.set ↔ ∀ a : Fin 2, win0_2.index t a * S512x128.size a ≤ (i a).val ∧ (i a).val < win0_2.index t a * S512x128.size a + S512x128.size a := by
  show i ∈ ((View.whole main_v13).slice (win0_2.rect t)).set ↔ _
  rw [View.set_slice_whole, Rect.mem_set_unit]
  exact Iff.rfl

theorem lt7 : 7 < cfg0.N := by rw [show cfg0.N = 8 from N_0]; decide

/-- The result array after the region: the accumulator's last contents. -/
theorem final0 (c : Dev nD) : (dat0 V c).arrAt 2 cfg0.N = acc V c 7 lt7 := by
  refine (dat0 V c).arrAt_eq_of_cover 2 _ (fun t hf => ?_) (fun i => ?_)
  · have h7 : t.val % 8 = 7 := (flush0_2 t).mp hf
    have hN : t.val < 8 := lt_of_lt_of_eq t.isLt N_0
    have ht : t.val = 7 := by omega
    show (cfg0.win 2).cut (grid0.coords t) ((dat0 V c).after 2 t) = _
    rw [after0_2, outsAt0_eq]
    obtain ⟨e0, e1⟩ := idx0_2 t
    obtain ⟨n, hn⟩ := t
    obtain rfl : n = 7 := ht
    funext j
    show acc V c 7 _ j = acc V c 7 _ (((cfg0.win 2).blk ⟨7, hn⟩).view.emb j)
    refine congrArg (acc V c 7 _) (funext fun a => Fin.ext ?_)
    match a with
    | ⟨0, _⟩ => show (j 0).val = win0_2.index ⟨7, hn⟩ (0 : Fin 2) * 512 + 1 * (j 0).val; omega
    | ⟨1, _⟩ => show (j 1).val = win0_2.index ⟨7, hn⟩ (1 : Fin 2) * 128 + 1 * (j 1).val; omega
  · refine ⟨t0_7, (flush0_2 t0_7).mpr rfl, ?_⟩
    rw [mem_blk0_2]
    obtain ⟨e0, e1⟩ := idx0_2 t0_7
    intro a
    match a with
    | ⟨0, _⟩ =>
      show win0_2.index t0_7 (0 : Fin 2) * 512 ≤ (i 0).val ∧ (i 0).val < win0_2.index t0_7 (0 : Fin 2) * 512 + 512
      have h0 : (i 0).val < 512 := (i 0).isLt
      omega
    | ⟨1, _⟩ =>
      show win0_2.index t0_7 (1 : Fin 2) * 128 ≤ (i 1).val ∧ (i 1).val < win0_2.index t0_7 (1 : Fin 2) * 128 + 128
      have h1 : (i 1).val < 128 := (i 1).isLt
      omega

end Generic

/-! ## At the ideal values -/

theorem lhs0_0 (j : S512x128.Idx) (q : dot_S512x2048_S2048x128_S512x128_1_0_0_1_n_n.contr.Idx) :
    (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem rhs0_1 (j : S512x128.Idx) (q : dot_S512x2048_S2048x128_S512x128_1_0_0_1_n_n.contr.Idx) :
    (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The zeroed accumulator is zero everywhere. -/
theorem pay1_apply (i : S512x128.Idx) : k0_pay1 (F := Ideal) i = 0 := by
  unfold k0_pay1
  rw [shapeCast_self]
  show Ideal.ofBits .f32 0x00000000#32 = 0
  exact Ideal.ofBits_zero_f32

/-- One step of the accumulation at an entry: the previous value plus the sum over the band of the products. -/
theorem pay2_apply (v3 : FVec Ideal S512x128 .f32) (v4 : FVec Ideal S512x2048 .bf16) (v6 : FVec Ideal S2048x128 .bf16) (b : Fin 512) (r : Fin 128) :
    k0_pay2 (F := Ideal) v3 v4 v6 (ix2 b r) = v3 (ix2 b r) + ∑ k : Fin 2048, v4 (ix2 b k) * v6 (ix2 k r) := by
  unfold k0_pay2
  rw [shapeCast_self, shapeCast_self, shapeCast_self, addf_apply]
  exact congrArg (v3 (ix2 b r) + ·) (PlainDot.matmul_zero_ix2 dot_S512x2048_S2048x128_S512x128_1_0_0_1_n_n rfl rfl rfl rfl lhs0_0 rhs0_1 none v4 v6 b r)

end Cert.KernelIdeal.Hand

end
-- ==== Proof.KIPre.lean ====
/-
  The first pallas_call's result at the ideal values, entry by entry: `pre (b, r) = ∑ k < 16384, x (b, k) · U (k, r)`.
  The accumulator after position n holds, at (b, r), the sum of the products over the first (n + 1) · 2048 positions
  of the contracted axis: the band at position n is the 2048 positions from n · 2048 on, a block's entry is the
  array's entry at "block index × block size + coordinate inside the block", and a sum over a + 2048 consecutive
  positions is the sum over the first a plus the sum over the last 2048. Only the order and grouping of the terms of
  a sum change, which is sound on the extended reals without any finiteness.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIValue0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- A sum over `a + b` consecutive positions, cut into its two consecutive bands. -/
theorem sum_two_bands' {M : Type} [AddCommMonoid M] {a b n : ℕ} (hn : a + b = n) (f : ℕ → M) :
    ∑ k : Fin n, f k.val = (∑ k : Fin a, f k.val) + ∑ k : Fin b, f (a + k.val) := by
  subst hn
  rw [Fin.sum_univ_add]
  rfl

variable (V : (c : Dev nD) → (b : Ref sig .tc) → Buf (Elt Ideal) ((c : Thread nD τ).loc b))

/-- The two operand arrays as the region finds them, and their bands at a point, typed as arrays of extended reals. -/
abbrev xA (c : Dev nD) : FVec Ideal S512x16384 .bf16 := V c main_v10
abbrev uA (c : Dev nD) : FVec Ideal S16384x128 .bf16 := V c main_v11
abbrev xblk (c : Dev nD) (t : Fin cfg0.N) : FVec Ideal S512x2048 .bf16 := iblk0 V c 0 t
abbrev ublk (c : Dev nD) (t : Fin cfg0.N) : FVec Ideal S2048x128 .bf16 := iblk0 V c 1 t

/-- Where the input windows' blocks sit: window 0 walks the columns of `x`, window 1 the rows of `U`. -/
theorem idx0_in : ∀ t : Fin cfg0.N, win0_0.index t (0 : Fin 2) = 0 ∧ win0_0.index t (1 : Fin 2) = t.val
    ∧ win0_1.index t (0 : Fin 2) = t.val ∧ win0_1.index t (1 : Fin 2) = 0 :=
  (by decide +kernel : ∀ t : Fin grid0.N, win0_0.index t (0 : Fin 2) = 0 ∧ win0_0.index t (1 : Fin 2) = t.val
    ∧ win0_1.index t (0 : Fin 2) = t.val ∧ win0_1.index t (1 : Fin 2) = 0)

/-- The term of the contraction at position `j` (zero past the axis's end, which no sum below reaches). -/
def term (c : Dev nD) (b : Fin 512) (r : Fin 128) (j : ℕ) : EReal :=
  if h : j < 16384 then xA V c (ix2 b ⟨j, h⟩) * uA V c (ix2 ⟨j, h⟩ r) else 0

/-- Entry (b, k) of the band of `x` at point `t` is `x (b, t · 2048 + k)`. -/
theorem iblk0_0_apply (c : Dev nD) (t : Fin cfg0.N) (b : Fin 512) (k : Fin 2048) (h : t.val * 2048 + k.val < 16384) :
    xblk V c t (ix2 b k) = xA V c (ix2 b ⟨t.val * 2048 + k.val, h⟩) := by
  obtain ⟨e0, e1, e2, e3⟩ := idx0_in t
  show V c main_v10 (((cfg0.win 0).blk t).view.emb (ix2 b k)) = _
  refine congrArg (V c main_v10) (funext fun a => Fin.ext ?_)
  match a with
  | ⟨0, _⟩ => show win0_0.index t (0 : Fin 2) * 512 + 1 * b.val = b.val; omega
  | ⟨1, _⟩ => show win0_0.index t (1 : Fin 2) * 2048 + 1 * k.val = t.val * 2048 + k.val; omega

/-- Entry (k, r) of the band of `U` at point `t` is `U (t · 2048 + k, r)`. -/
theorem iblk0_1_apply (c : Dev nD) (t : Fin cfg0.N) (k : Fin 2048) (r : Fin 128) (h : t.val * 2048 + k.val < 16384) :
    ublk V c t (ix2 k r) = uA V c (ix2 ⟨t.val * 2048 + k.val, h⟩ r) := by
  obtain ⟨e0, e1, e2, e3⟩ := idx0_in t
  show V c main_v11 (((cfg0.win 1).blk t).view.emb (ix2 k r)) = _
  refine congrArg (V c main_v11) (funext fun a => Fin.ext ?_)
  match a with
  | ⟨0, _⟩ => show win0_1.index t (0 : Fin 2) * 2048 + 1 * k.val = t.val * 2048 + k.val; omega
  | ⟨1, _⟩ => show win0_1.index t (1 : Fin 2) * 128 + 1 * r.val = r.val; omega

/-- The band's sum of products at point `t` is the sum of the contraction's terms over the band's positions. -/
theorem band_sum (c : Dev nD) (t : Fin cfg0.N) (b : Fin 512) (r : Fin 128) :
    ∑ k : Fin 2048, xblk V c t (ix2 b k) * ublk V c t (ix2 k r)
      = ∑ k : Fin 2048, term V c b r (t.val * 2048 + k.val) := by
  refine Finset.sum_congr rfl fun k _ => ?_
  have hN : t.val < 8 := lt_of_lt_of_eq t.isLt N_0
  have h : t.val * 2048 + k.val < 16384 := by have := k.isLt; omega
  unfold term
  rw [dif_pos h]
  rw [iblk0_0_apply V c t b k h, iblk0_1_apply V c t k r h]

/-- The accumulator after position `n`, at (b, r): the contraction's terms over the first (n + 1) · 2048 positions. -/
theorem acc_apply (c : Dev nD) : ∀ (n : ℕ) (hn : n < cfg0.N) (b : Fin 512) (r : Fin 128),
    (acc V c n hn : FVec Ideal S512x128 .f32) (ix2 b r) = ∑ j : Fin ((n + 1) * 2048), term V c b r j.val
  | 0, hn, b, r => by
    rw [acc, pay2_apply, pay1_apply, zero_add]
    refine (band_sum V c ⟨0, hn⟩ b r).trans ?_
    show ∑ k : Fin 2048, term V c b r (0 * 2048 + k.val) = ∑ j : Fin 2048, term V c b r j.val
    simp only [Nat.zero_mul, Nat.zero_add]
  | n + 1, hn, b, r => by
    rw [acc, pay2_apply, acc_apply c n (Nat.lt_of_succ_lt hn) b r]
    refine (congrArg ((∑ j : Fin ((n + 1) * 2048), term V c b r j.val) + ·) (band_sum V c ⟨n + 1, hn⟩ b r)).trans ?_
    exact (sum_two_bands' (by ring : (n + 1) * 2048 + 2048 = (n + 1 + 1) * 2048) (term V c b r)).symm

/-- THE RESULT of the first pallas_call at an entry: the whole contraction. -/
theorem pre_apply (c : Dev nD) (b : Fin 512) (r : Fin 128) :
    ((dat0 V c).arrAt 2 cfg0.N : FVec Ideal S512x128 .f32) (ix2 b r) = ∑ k : Fin 16384, xA V c (ix2 b k) * uA V c (ix2 k r) := by
  rw [final0]
  refine (acc_apply V c 7 lt7 b r).trans ?_
  show ∑ j : Fin 16384, term V c b r j.val = _
  refine Finset.sum_congr rfl fun k _ => ?_
  unfold term
  rw [dif_pos k.isLt]

end Cert.KernelIdeal.Hand

end
-- ==== Proof.LibDotRows.lean ====
/-
  A matrix product in which BOTH operands are contracted along their last axis — an [a, K] matrix against an
  [b, K] matrix, the product x · Wᵀ of a linear layer whose weight is stored output-major — read at an entry
  written by coordinates: entry (p, q) is the sum over k < K of row p of the left operand times row q of the right.
  At the ideal values the accumulator 0 adds nothing and no rounding or chunk order is left in the sum.
-/
import Idealize.ShloMosaic.PureOps.Ideal.Laws
import Idealize.ShloMosaic.Lib.ValueIdx

noncomputable section

namespace Cert.LibDotRows

open Idealize.ShloMosaic Idealize.ShloMosaic.ValueIdx

/-- Entry (p, q) of an [a, K] × [b, K] product contracting the last axis of both operands, into the zero
    accumulator, is the sum over the contracted position k of the left row's entry (p, k) times the right row's
    entry (q, k). The four hypotheses on the dot's index maps are decided by unfolding them at a literal record. -/
theorem matmul_zero_rows_ix2 {a K b : ℕ} {φ₁ φ₂ : FTy}
    (d : DotDims (⟨2, ![a, K]⟩ : Shape) (⟨2, ![b, K]⟩ : Shape) (⟨2, ![a, b]⟩ : Shape))
    (hr : d.contr.rank = 1) (hs : d.contr.size ⟨0, by omega⟩ = K)
    (hlc : d.lhsContracting = [1]) (hrc : d.rhsContracting = [1])
    (hl0 : ∀ (j : (⟨2, ![a, b]⟩ : Shape).Idx) (q : d.contr.Idx), (d.lhsIdx j q 0).val = (j 0).val)
    (hr0 : ∀ (j : (⟨2, ![a, b]⟩ : Shape).Idx) (q : d.contr.Idx), (d.rhsIdx j q 0).val = (j 1).val)
    (prec : Option ContractPrecision)
    (lhs : FVec Ideal (⟨2, ![a, K]⟩ : Shape) φ₁) (rhs : FVec Ideal (⟨2, ![b, K]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 q k := funext fun ax => Fin.ext (by
    match ax with
    | ⟨0, _⟩ => exact hr0 _ _
    | ⟨1, _⟩ => exact (d.rhsIdx_val_of_single hrc _ _).trans hk)
  rw [el, er]

end Cert.LibDotRows

end
-- ==== Proof.KIValue1.lean ====
/-
  What the second pallas_call leaves in the result array, at the ideal values: entry (b, n) is
  `(∑ r < 128, pre (b, r) · V (n, r)) · mask (0, n)` of the three arrays the region finds. Grid point t computes the
  band of 4096 output columns from t · 4096 on: its body contracts the whole of `pre` with the band's 4096 rows of
  `V` along their last axes (the matrix unit's product into the zero accumulator is the plain sum) and multiplies
  column q by the band's q-th mask entry, the one mask row laid along all 512 rows; the four bands tile the array,
  the band holding column n being the one at n / 4096.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIRegion1
import proofs.«171692_j26250840113208_1_alg».proof.Proof.LibDotRows
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz2' : (![0, 0] : Fin 2 → Nat) = fun _ => 0 := funext fun a => by fin_cases a <;> rfl

theorem lhs1_0 (j : S512x4096.Idx) (q : dot_S512x128_S4096x128_S512x4096_1_1_0_0_n_n.contr.Idx) :
    (dot_S512x128_S4096x128_S512x4096_1_1_0_0_n_n.lhsIdx j q 0).val = (j 0).val := by
  unfold DotDims.lhsIdx
  rw [dif_neg (show ¬(0 : Fin S512x128.rank) ∈ dot_S512x128_S4096x128_S512x4096_1_1_0_0_n_n.lhsBatch by decide), dif_pos (show (0 : Fin S512x128.rank) ∈ dot_S512x128_S4096x128_S512x4096_1_1_0_0_n_n.lhsNonContracting by decide)]
  rfl
theorem rhs1_0 (j : S512x4096.Idx) (q : dot_S512x128_S4096x128_S512x4096_1_1_0_0_n_n.contr.Idx) :
    (dot_S512x128_S4096x128_S512x4096_1_1_0_0_n_n.rhsIdx j q 0).val = (j 1).val := by
  unfold DotDims.rhsIdx
  rw [dif_neg (show ¬(0 : Fin S4096x128.rank) ∈ dot_S512x128_S4096x128_S512x4096_1_1_0_0_n_n.rhsBatch by decide), dif_pos (show (0 : Fin S4096x128.rank) ∈ dot_S512x128_S4096x128_S512x4096_1_1_0_0_n_n.rhsNonContracting by decide)]
  rfl

/-- The body's stored value at an entry of the block: row p of the first operand against row q of the second,
    times the mask row's q-th entry. -/
theorem pay1_1_apply (v0 : FVec Ideal S512x128 .bf16) (v2 : FVec Ideal S4096x128 .bf16) (v5 : FVec Ideal S1x4096 .f32) (p : Fin 512) (q : Fin 4096) :
    k1_pay1 (F := Ideal) v0 v2 v5 (ix2 p q) = (∑ r : Fin 128, v0 (ix2 p r) * v2 (ix2 q r)) * v5 (ix2 (0 : Fin 1) q) := by
  unfold k1_pay1
  rw [shapeCast_self, shapeCast_self, shapeCast_self, mulf_apply, broadcastTo_1b_ab_apply]
  exact congrArg (· * v5 (ix2 (0 : Fin 1) q)) (Cert.LibDotRows.matmul_zero_rows_ix2 dot_S512x128_S4096x128_S512x4096_1_1_0_0_n_n rfl rfl rfl rfl lhs1_0 rhs1_0 none v0 v2 p q)

variable (V : (c : Dev nD) → (b : Ref sig .tc) → Buf (Elt Ideal) ((c : Thread nD τ).loc b))

/-- Where the windows' blocks sit at point `t`: `pre` whole; the rows of `V`, the mask's columns and the output's
    columns in the band at `t`. -/
theorem idx1_in : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val)

/-- The three arrays the region reads, as it finds them, typed as arrays of extended reals. -/
abbrev pA (c : Dev nD) : FVec Ideal S512x128 .bf16 := V c main_v14
abbrev vA (c : Dev nD) : FVec Ideal S16384x128 .bf16 := V c main_v12
abbrev mA (c : Dev nD) : FVec Ideal S1x16384 .f32 := V c main_v9

/-- The result at (b, n), of the arrays the region finds. -/
def G1c (c : Dev nD) (b : Fin 512) (n : Fin 16384) : EReal :=
  (∑ r : Fin 128, pA V c (ix2 b r) * vA V c (ix2 n r)) * mA V c (ix2 (0 : Fin 1) n)

/-- The same as an array. -/
def G1 (c : Dev nD) : Buf (Elt Ideal) ((c : Thread nD τ).loc main_v15) :=
  fun i => G1c V c ⟨(i 0).val, idx2_lt0 i⟩ ⟨(i 1).val, idx2_lt1 i⟩

theorem G1_of (c : Dev nD) (i : S512x16384.Idx) (b : Fin 512) (n : Fin 16384) (h0 : (i 0).val = b.val) (h1 : (i 1).val = n.val) :
    G1 V c i = G1c V c b n := by
  show G1c V c ⟨(i 0).val, idx2_lt0 i⟩ ⟨(i 1).val, idx2_lt1 i⟩ = G1c V c b n
  rw [show (⟨(i 0).val, idx2_lt0 i⟩ : Fin 512) = b from Fin.ext h0, show (⟨(i 1).val, idx2_lt1 i⟩ : Fin 16384) = n from Fin.ext h1]

theorem iblk1_0_apply (c : Dev nD) (t : Fin cfg1.N) (p : Fin 512) (r : Fin 128) :
    iblk1 V c 0 t (ix2 p r) = V c main_v14 (ix2 p r) := by
  obtain ⟨e0, e1, -⟩ := idx1_in t
  show V c main_v14 (((cfg1.win 0).blk t).view.emb (ix2 p r)) = _
  refine congrArg (V c main_v14) (funext fun a => Fin.ext ?_)
  match a with
  | ⟨0, _⟩ => show win1_0.index t (0 : Fin 2) * 512 + 1 * p.val = p.val; omega
  | ⟨1, _⟩ => show win1_0.index t (1 : Fin 2) * 128 + 1 * r.val = r.val; omega

theorem iblk1_1_apply (c : Dev nD) (t : Fin cfg1.N) (q : Fin 4096) (r : Fin 128) (h : t.val * 4096 + q.val < 16384) :
    iblk1 V c 1 t (ix2 q r) = V c main_v12 (ix2 ⟨t.val * 4096 + q.val, h⟩ r) := by
  obtain ⟨-, -, e2, e3, -⟩ := idx1_in t
  show V c main_v12 (((cfg1.win 1).blk t).view.emb (ix2 q r)) = _
  refine congrArg (V c main_v12) (funext fun a => Fin.ext ?_)
  match a with
  | ⟨0, _⟩ => show win1_1.index t (0 : Fin 2) * 4096 + 1 * q.val = t.val * 4096 + q.val; omega
  | ⟨1, _⟩ => show win1_1.index t (1 : Fin 2) * 128 + 1 * r.val = r.val; omega

theorem iblk1_2_apply (c : Dev nD) (t : Fin cfg1.N) (q : Fin 4096) (h : t.val * 4096 + q.val < 16384) :
    iblk1 V c 2 t (ix2 (0 : Fin 1) q) = V c main_v9 (ix2 (0 : Fin 1) ⟨t.val * 4096 + q.val, h⟩) := by
  obtain ⟨-, -, -, -, e4, e5, -⟩ := idx1_in t
  show V c main_v9 (((cfg1.win 2).blk t).view.emb (ix2 (0 : Fin 1) q)) = _
  refine congrArg (V c main_v9) (funext fun a => Fin.ext ?_)
  match a with
  | ⟨0, _⟩ => show win1_2.index t (0 : Fin 2) * 1 + 1 * 0 = 0; omega
  | ⟨1, _⟩ => show win1_2.index t (1 : Fin 2) * 4096 + 1 * q.val = t.val * 4096 + q.val; omega

/-- WHAT POINT `t` WRITES BACK is block `t` of `G1`. -/
theorem flushed1_eq (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2']
  simp only [View.ld_unit_zero (S := S512x128) hz2', View.ld_unit_zero (S := S4096x128) hz2', View.ld_unit_zero (S := S1x4096) hz2']
  obtain ⟨-, -, -, -, -, -, e6, e7⟩ := idx1_in t
  have hN : t.val < 4 := lt_of_lt_of_eq t.isLt N_1
  funext j
  obtain ⟨p, q, rfl⟩ : ∃ (p : Fin 512) (q : Fin 4096), j = ix2 p q := ⟨j 0, j 1, eq_ix2 j⟩
  have h : t.val * 4096 + q.val < 16384 := by have := q.isLt; omega
  show k1_pay1 (F := Ideal) (iblk1 V c 0 t) (iblk1 V c 1 t) (iblk1 V c 2 t) (ix2 p q) = G1 V c (((cfg1.win 3).blk t).view.emb (ix2 p q))
  refine (pay1_1_apply (iblk1 V c 0 t) (iblk1 V c 1 t) (iblk1 V c 2 t) p q).trans ?_
  refine Eq.trans ?_ (G1_of V c (((cfg1.win 3).blk t).view.emb (ix2 p q)) p ⟨t.val * 4096 + q.val, h⟩
    (by show win1_3.index t (0 : Fin 2) * 512 + 1 * p.val = p.val; omega)
    (by show win1_3.index t (1 : Fin 2) * 4096 + 1 * q.val = t.val * 4096 + q.val; omega)).symm
  unfold G1c
  rw [iblk1_2_apply V c t q h]
  refine congrArg (· * mA V c (ix2 (0 : Fin 1) ⟨t.val * 4096 + q.val, h⟩)) (Finset.sum_congr rfl fun r _ => ?_)
  rw [iblk1_0_apply V c t p r, iblk1_1_apply V c t q r h]

theorem mem_blk1_3 (t : Fin cfg1.N) (i : S512x16384.Idx) :
    i ∈ ((cfg1.win 3).blk t).view.set ↔ ∀ a : Fin 2, win1_3.index t a * S512x4096.size a ≤ (i a).val ∧ (i a).val < win1_3.index t a * S512x4096.size a + S512x4096.size a := by
  show i ∈ ((View.whole main_v15).slice (win1_3.rect t)).set ↔ _
  rw [View.set_slice_whole, Rect.mem_set_unit]
  exact Iff.rfl

/-- THE RESULT ARRAY after the region. -/
theorem final1 (c : Dev nD) : (dat1 V c).arrAt 3 cfg1.N = G1 V c := by
  refine (dat1 V c).arrAt_eq_of_cover 3 (G1 V c) (fun t _ => flushed1_eq V c t) (fun i => ?_)
  have h0 : (i 0).val < 512 := (i 0).isLt
  have h1 : (i 1).val < 16384 := (i 1).isLt
  have ht : (i 1).val / 4096 < cfg1.N := by rw [show cfg1.N = 4 from N_1]; omega
  refine ⟨⟨(i 1).val / 4096, ht⟩, flush1_3 _, ?_⟩
  rw [mem_blk1_3]
  obtain ⟨-, -, -, -, -, -, e6, e7⟩ := idx1_in ⟨(i 1).val / 4096, ht⟩
  intro a
  match a with
  | ⟨0, _⟩ =>
    show win1_3.index ⟨(i 1).val / 4096, ht⟩ (0 : Fin 2) * 512 ≤ (i 0).val ∧ (i 0).val < win1_3.index ⟨(i 1).val / 4096, ht⟩ (0 : Fin 2) * 512 + 512
    omega
  | ⟨1, _⟩ =>
    show win1_3.index ⟨(i 1).val / 4096, ht⟩ (1 : Fin 2) * 4096 ≤ (i 1).val ∧ (i 1).val < win1_3.index ⟨(i 1).val / 4096, ht⟩ (1 : Fin 2) * 4096 + 4096
    have e7' : win1_3.index ⟨(i 1).val / 4096, ht⟩ (1 : Fin 2) = (i 1).val / 4096 := e7
    omega

end Cert.KernelIdeal.Hand

end
-- ==== Proof.KIBridge.lean ====
/-
  The kernel's result array in closed form, at the ideal values, as one function of the argument arrays:
  entry (b, n) is `(∑ r < 128, (∑ k < 16384, x (b, k) · U (k, r)) · V (n, r)) · mask n`, where `mask` is the float
  vector the host builds by scattering 1.0 into zeros at the (normalised) column indices. The arrays each
  pallas_call reads are read back through the program's host operations: a change of float format is the identity on
  the extended reals, the first call's result feeds the second through such a change, and the mask row is the
  mask vector under a leading unit axis.
-/
import proofs.«171692_j26250840113208_1_alg».proof.Proof.Gen.KernelIdeal.Launch
import proofs.«171692_j26250840113208_1_alg».proof.Proof.Gen.KernelIdeal.Skeleton
import proofs.«171692_j26250840113208_1_alg».proof.Proof.Gen.KernelIdeal.Points
import proofs.«171692_j26250840113208_1_alg».proof.Proof.KIRun
import proofs.«171692_j26250840113208_1_alg».proof.Proof.KIPre
import proofs.«171692_j26250840113208_1_alg».proof.Proof.KIValue1
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The float column mask the host builds from the column indices: 1.0 scattered into zeros at the indices, a
    negative index first moved up by the axis's length. -/
def maskF {F : FTy → Type} [FloatOps F] (idx : IVec S1048576 32) : FVec F S16384 .f32 :=
  Host.scatter scatter_S16384_S1048576x1_S1048576_n_0_0_1 (fun _ b => b)
    (broadcastInDim S16384 ![] bcast_S_S16384 (constant (F := F) S_ .f32 0x00000000#32))
    (broadcastInDim S1048576x1 ![0] bcast_S1048576_S1048576x1_0
      (select (cmpi .slt idx (broadcastInDim S1048576 ![] bcast_S_S1048576 (constantI S_ 32 0#32)))
        (addi idx (broadcastInDim S1048576 ![] bcast_S_S1048576 (constantI S_ 32 16384#32))) idx))
    (broadcastInDim S1048576 ![] bcast_S_S1048576 (constant (F := F) S_ .f32 0x3F800000#32))

section Reads
variable (m : (ℓ : Loc nD τ sig) → Buf (Elt F) ℓ)

/-- What the first pallas_call finds in its two operand arrays: the arguments `x` and `U` in the shorter format. -/
theorem e10 (c : Dev nD) : (V1 m c main_v10 : FVec F S512x16384 .bf16) = truncf .bf16 (m ((c : Thread nD τ).loc main_arg0)) bitsLt_bf16_f32 := by
  show StableHlo.after hostOps0 (W0 m c) (Proc.devRef .tc main_v10) = _
  after_results <;> rfl
theorem e11 (c : Dev nD) : (V1 m c main_v11 : FVec F S16384x128 .bf16) = truncf .bf16 (m ((c : Thread nD τ).loc main_arg1)) bitsLt_bf16_f32 := by
  show StableHlo.after hostOps0 (W0 m c) (Proc.devRef .tc main_v11) = _
  after_results <;> rfl
theorem e12_1 (c : Dev nD) : (V1 m c main_v12 : FVec F S16384x128 .bf16) = truncf .bf16 (m ((c : Thread nD τ).loc main_arg2)) bitsLt_bf16_f32 := by
  show StableHlo.after hostOps0 (W0 m c) (Proc.devRef .tc main_v12) = _
  after_results <;> rfl
theorem e9_1 (c : Dev nD) : (V1 m c main_v9 : FVec F S1x16384 .f32) = shapeCast S1x16384 (maskF (F := F) (m ((c : Thread nD τ).loc main_arg4))) shapeCasts_S16384_S1x16384 := by
  show StableHlo.after hostOps0 (W0 m c) (Proc.devRef .tc main_v9) = _
  unfold maskF
  after_results <;> rfl

/-- What the second pallas_call finds: `V` in the shorter format and the mask row, as the first found them (neither the
    first call nor the host operation between the calls writes them), and the first call's result in the shorter format. -/
theorem e12 (c : Dev nD) : (V3 m c main_v12 : FVec F S16384x128 .bf16) = truncf .bf16 (m ((c : Thread nD τ).loc main_arg2)) bitsLt_bf16_f32 :=
  calc (V3 m c main_v12 : FVec F S16384x128 .bf16)
    _ = W2 m c (Proc.devRef .tc main_v12) := StableHlo.after_of_writes_sub hostOps1 _ hostOps1_writes (r := main_v12) (by decide)
    _ = W1 m c (Proc.devRef .tc main_v12) := W2_of_ne m c main_v12 (by decide)
    _ = _ := e12_1 m c
theorem e9 (c : Dev nD) : (V3 m c main_v9 : FVec F S1x16384 .f32) = shapeCast S1x16384 (maskF (F := F) (m ((c : Thread nD τ).loc main_arg4))) shapeCasts_S16384_S1x16384 :=
  calc (V3 m c main_v9 : FVec F S1x16384 .f32)
    _ = W2 m c (Proc.devRef .tc main_v9) := StableHlo.after_of_writes_sub hostOps1 _ hostOps1_writes (r := main_v9) (by decide)
    _ = W1 m c (Proc.devRef .tc main_v9) := W2_of_ne m c main_v9 (by decide)
    _ = _ := e9_1 m c
theorem e14 (c : Dev nD) : (V3 m c main_v14 : FVec F S512x128 .bf16) = truncf .bf16 ((dat0 (V1 m) c).arrAt 2 cfg0.N) bitsLt_bf16_f32 := by
  have h : (V3 m c main_v14 : FVec F S512x128 .bf16) = truncf .bf16 (W2 m c (Proc.devRef .tc main_v13)) bitsLt_bf16_f32 := by
    show StableHlo.after hostOps1 (W2 m c) (Proc.devRef .tc main_v14) = _
    after_results <;> rfl
  rw [h]
  exact congrArg (fun X : FVec F S512x128 .f32 => truncf .bf16 X bitsLt_bf16_f32) (W2_arr m c 2)

end Reads

/-! ## The closed form -/

/-- The kernel's result at (b, n), of the argument arrays. -/
def Gkc (x : FVec Ideal S512x16384 .f32) (U Vv : FVec Ideal S16384x128 .f32) (idx : IVec S1048576 32) (b : Fin 512) (n : Fin 16384) : EReal :=
  (∑ r : Fin 128, (∑ k : Fin 16384, x (ix2 b k) * U (ix2 k r)) * Vv (ix2 n r)) * maskF (F := Ideal) idx (ix1 n)

variable (m : (ℓ : Loc nD τ sig) → Buf (Elt Ideal) ℓ)

/-- The argument arrays on core `c`, typed as arrays of extended reals (and of index words). -/
abbrev argX (c : Dev nD) : FVec Ideal S512x16384 .f32 := m ((c : Thread nD τ).loc main_arg0)
abbrev argU (c : Dev nD) : FVec Ideal S16384x128 .f32 := m ((c : Thread nD τ).loc main_arg1)
abbrev argV (c : Dev nD) : FVec Ideal S16384x128 .f32 := m ((c : Thread nD τ).loc main_arg2)
abbrev argI (c : Dev nD) : IVec S1048576 32 := m ((c : Thread nD τ).loc main_arg4)
/-- The result array after the run, typed as an array of extended reals. -/
abbrev outK (c : Dev nD) : FVec Ideal S512x16384 .f32 := (dat1 (V3 m) c).arrAt 3 cfg1.N

/-- THE KERNEL'S RESULT ARRAY, entry by entry. -/
theorem kernel_value (c : Dev nD) (b : Fin 512) (n : Fin 16384) :
    outK m c (ix2 b n) = Gkc (argX m c) (argU m c) (argV m c) (argI m c) b n := by
  show (dat1 (V3 m) c).arrAt 3 cfg1.N (ix2 b n) = _
  rw [final1, G1_of (V3 m) c (ix2 b n) b n rfl rfl]
  unfold G1c Gkc
  have hm : mA (V3 m) c (ix2 (0 : Fin 1) n) = maskF (F := Ideal) (argI m c) (ix1 n) := by
    show (V3 m c main_v9 : FVec Ideal S1x16384 .f32) (ix2 (0 : Fin 1) n) = _
    rw [e9 m c]
    exact shapeCast_a_1a_apply _ _ (0 : Fin 1) n
  rw [hm]
  refine congrArg (· * maskF (F := Ideal) (argI m c) (ix1 n)) (Finset.sum_congr rfl fun r _ => ?_)
  have hp : pA (V3 m) c (ix2 b r) = ∑ k : Fin 16384, argX m c (ix2 b k) * argU m c (ix2 k r) := by
    show (V3 m c main_v14 : FVec Ideal S512x128 .bf16) (ix2 b r) = _
    rw [e14 m c, truncf_apply]
    have h2 : (∑ k : Fin 16384, xA (V1 m) c (ix2 b k) * uA (V1 m) c (ix2 k r)) = ∑ k : Fin 16384, argX m c (ix2 b k) * argU m c (ix2 k r) :=
      Finset.sum_congr rfl fun k _ => by
        have hx : xA (V1 m) c (ix2 b k) = argX m c (ix2 b k) := by
          show (V1 m c main_v10 : FVec Ideal S512x16384 .bf16) (ix2 b k) = _
          rw [e10 m c, truncf_apply]
        have hu : uA (V1 m) c (ix2 k r) = argU m c (ix2 k r) := by
          show (V1 m c main_v11 : FVec Ideal S16384x128 .bf16) (ix2 k r) = _
          rw [e11 m c, truncf_apply]
        rw [hx, hu]
    exact (pre_apply (V1 m) c b r).trans h2
  have hv : vA (V3 m) c (ix2 n r) = argV m c (ix2 n r) := by
    show (V3 m c main_v12 : FVec Ideal S16384x128 .bf16) (ix2 n r) = _
    rw [e12 m c, truncf_apply]
  rw [hp, hv]

end Cert.KernelIdeal.Hand

end
-- ==== Proof.RefApply.lean ====
/- The reference read at an index, at the ideal values. The reference computes `where(hit[n], ((x · U) · Vᵀ)[b, n], 0)`,
   `hit` being the boolean column mask scattered from the normalised indices. Each stage of the reference is read
   at an index by the stage lemmas; the composed index maps of the two products, the transposition and the two
   broadcasts are the plain row/column indices, and the reference's float zero is the extended real 0. -/
import proofs.«171692_j26250840113208_1_alg».proof.Proof.RefRead

noncomputable section

namespace Cert.RefSide

open Cert.ReferenceIdeal Cert.ReferenceIdeal.Gen Cert.ReferenceIdeal.RefRead Idealize.ShloMosaic Idealize.ShloMosaic.ValueIdx

/-- The reference's column mask: `true` scattered into a vector of 16384 `false` at the normalised indices
    (a negative index has 16384 added to it). -/
def hit (idx : IVec S1048576 32) : S16384.Idx → BitVec 1 :=
  Host.scatter scatter_S16384_S1048576x1_S1048576_n_0_0_1 (fun _ b => b) (broadcastInDim S16384 ![] bcast_S_S16384 (constantI S_ 1 0#1)) (broadcastInDim S1048576x1 ![0] bcast_S1048576_S1048576x1_0 (select (cmpi .slt idx (broadcastInDim S1048576 ![] bcast_S_S1048576 (constantI S_ 32 0#32))) (addi idx (broadcastInDim S1048576 ![] bcast_S_S1048576 (constantI S_ 32 16384#32))) idx)) (broadcastInDim S1048576 ![] bcast_S_S1048576 (constantI S_ 1 1#1))

/-- The mask is the scatter stage of the reference read one operation at a time. -/
theorem hit_eq (idx : IVec S1048576 32) : hit idx = val_main_v11 (F := Ideal) idx := rfl

/-- The row index of the first product's left operand, through both products' index maps. -/
theorem lidx_v0_v2 (b : Fin 512) (n : Fin 16384) (r : Fin 128) (k : Fin 16384) :
    lidx_main_v0 (lidx_main_v2 (ix2 b n) r) k = ix2 b k :=
  funext fun a => Fin.ext (by match a with | ⟨0, _⟩ => rfl | ⟨1, _⟩ => rfl)

/-- The index of the first product's right operand, through both products' index maps. -/
theorem ridx_v0_v2 (b : Fin 512) (n : Fin 16384) (r : Fin 128) (k : Fin 16384) :
    ridx_main_v0 (lidx_main_v2 (ix2 b n) r) k = ix2 k r :=
  funext fun a => Fin.ext (by match a with | ⟨0, _⟩ => rfl | ⟨1, _⟩ => rfl)

/-- The transposed operand read through the second product's index map. -/
theorem idx_v1_v2 (b : Fin 512) (n : Fin 16384) (r : Fin 128) :
    idx_main_v1 (ridx_main_v2 (ix2 b n) r) = ix2 n r :=
  funext fun a => Fin.ext (by match a with | ⟨0, _⟩ => rfl | ⟨1, _⟩ => rfl)

/-- The mask's column through the two broadcasts. -/
theorem idx_v12_call0 (b : Fin 512) (n : Fin 16384) :
    idx_main_v12 (idx_main_call0_v0 (ix2 b n)) = ix1 n :=
  funext fun a => Fin.ext (by match a with | ⟨0, _⟩ => rfl)

/-- The reference's result at row `b`, column `n`: the product `(x · U) · Vᵀ` there where the column is hit, else zero. -/
theorem ref_apply (x : FVec Ideal S512x16384 .f32) (U V : FVec Ideal S16384x128 .f32) (idx : IVec S1048576 32)
    (b : Fin 512) (n : Fin 16384) :
    (select (broadcastInDim S512x16384 ![0, 1] bcast_S1x16384_S512x16384_0_1 (broadcastInDim S1x16384 ![1] bcast_S16384_S1x16384_1 (Host.scatter scatter_S16384_S1048576x1_S1048576_n_0_0_1 (fun _ b => b) (broadcastInDim S16384 ![] bcast_S_S16384 (constantI S_ 1 0#1)) (broadcastInDim S1048576x1 ![0] bcast_S1048576_S1048576x1_0 (select (cmpi .slt idx (broadcastInDim S1048576 ![] bcast_S_S1048576 (constantI S_ 32 0#32))) (addi idx (broadcastInDim S1048576 ![] bcast_S_S1048576 (constantI S_ 32 16384#32))) idx)) (broadcastInDim S1048576 ![] bcast_S_S1048576 (constantI S_ 1 1#1))))) (Host.dotGeneral (F := Ideal) dot_S512x128_S128x16384_S512x16384_1_0_0_1_n_n none (Host.dotGeneral (F := Ideal) dot_S512x16384_S16384x128_S512x128_1_0_0_1_n_n none x U) (transpose S128x16384 [1, 0] V transposes_S16384x128_S128x16384_1_0)) (broadcastInDim S512x16384 ![] bcast_S_S512x16384 (constant (F := Ideal) S_ .f32 0x00000000#32))) (ix2 b n)
      = if hit idx (ix1 n) = 1#1 then ∑ r : Fin 128, (∑ k : Fin 16384, x (ix2 b k) * U (ix2 k r)) * V (ix2 n r) else 0 := by
  refine (congrFun (val_main_v14_eq (F := Ideal) x U V idx) (ix2 b n)).trans ?_
  rw [val_main_v14_apply, val_main_call0_v0_apply, val_main_v12_apply, val_main_v13_apply, val_main_cst_apply,
    val_main_v2_apply, idx_v12_call0, ← hit_eq]
  simp only [val_main_v0_apply, val_main_v1_apply, lidx_v0_v2, ridx_v0_v2, idx_v1_v2]
  rw [show (FloatOps.ofBits FTy.f32 0x00000000#32 : Ideal .f32) = 0 from Ideal.ofBits_zero_f32]
  rfl

end Cert.RefSide

end
-- ==== Proof.LibScatterMap.lean ====
/- A scatter that keeps the update (the fold step replaces the hit element by the update's element)
   commutes with any map of the elements: mapping the result is the same as scattering the mapped
   updates into the mapped operand, at the same indices. General; depends only on the library's
   definition of `Host.scatter` as a left fold over the update indices. -/
import Idealize.ShloMosaic.PureOps.ShapeOps

namespace Idealize.ShloMosaic.ScatterMap

open Idealize.ShloMosaic

/-- The fold invariant behind `scatter_set_map`: over any list of update positions, and from any
    accumulator, mapping `g` over the folded result equals folding the mapped step from the mapped
    accumulator. The step at a position either leaves the accumulator alone (index outside the
    operand) or overwrites exactly one element by the update's element there, and both commute with `g`. -/
theorem foldl_set_map {s si u : Shape} {w : Nat} {α β : Type} (d : ScatterDims s si u) (g : α → β)
    (idx : IVec si w) (upd : u.Idx → α) (l : List (Fin u.numel)) (x : s.Idx → α) (i : s.Idx) :
    g (l.foldl (fun r n =>
        match d.resultIdx? (u.rowMajor.symm n) idx with
        | some i => fun i' => if i' = i then (fun _ b => b) (r i) (upd (u.rowMajor.symm n)) else r i'
        | none => r) x i)
      = l.foldl (fun r n =>
        match d.resultIdx? (u.rowMajor.symm n) idx with
        | some i => fun i' => if i' = i then (fun _ b => b) (r i) (g (upd (u.rowMajor.symm n))) else r i'
        | none => r) (fun j => g (x j)) i := by
  induction l generalizing x with
  | nil => rfl
  | cons n l ih =>
    simp only [List.foldl_cons]
    rw [ih]
    refine congrArg (fun a : s.Idx → β => List.foldl _ a l i) ?_
    cases d.resultIdx? (u.rowMajor.symm n) idx with
    | none => rfl
    | some k =>
      funext j
      by_cases hj : j = k
      · simp [hj]
      · simp [hj]

/-- `Host.scatter` with the body that returns the update commutes with any map `g` of the elements:
    `g (scatter x idx upd i) = scatter (g ∘ x) idx (g ∘ upd) i`. -/
theorem scatter_set_map {s si u : Shape} {w : Nat} {α β : Type} (d : ScatterDims s si u) (g : α → β)
    (x : s.Idx → α) (idx : IVec si w) (upd : u.Idx → α) (i : s.Idx) :
    g (Host.scatter d (fun _ b => b) x idx upd i)
      = Host.scatter d (fun _ b => b) (fun j => g (x j)) idx (fun j => g (upd j)) i := by
  unfold Host.scatter
  exact foldl_set_map d g idx upd (List.finRange u.numel) x i

end Idealize.ShloMosaic.ScatterMap
-- ==== Proof.Final.lean ====
/-
  The two programs compute one function. At the ideal values the kernel's result at (b, n) is
  `(∑ r, (∑ k, x (b, k) · U (k, r)) · V (n, r)) · mask n` with `mask` the float vector made by scattering 1.0 into
  zeros, and the reference's is that product where the boolean vector made by scattering `true` into `false` at the
  same indices holds, else 0. A scatter that keeps the update commutes with any map of the elements; mapping
  `false ↦ 0`, `true ↦ 1` turns the boolean scatter into the float one, so `mask n` is 1 where the column is hit and 0
  elsewhere, and on the extended reals `y · 1 = y` and `y · 0 = 0` for every `y`, infinite or not: no finiteness is
  used.
-/
import proofs.«171692_j26250840113208_1_alg».proof.Proof.KIBridge
import proofs.«171692_j26250840113208_1_alg».proof.Proof.RefApply
import proofs.«171692_j26250840113208_1_alg».proof.Proof.LibScatterMap
import Idealize.ShloMosaic.Lib.IdealHost

noncomputable section

namespace Cert.Final

open Idealize.ShloMosaic Idealize.ShloMosaic.TcCoe Idealize.SL.Sem Idealize.ShloMosaic.ValueIdx

/-- The indicator of a one-bit flag as an extended real. -/
def ind (b : BitVec 1) : EReal := if b = 1#1 then 1 else 0

/-- The float mask at a column is the indicator of the boolean mask there. -/
theorem maskF_eq (idx : IVec Cert.KernelIdeal.S1048576 32) (n : Fin 16384) :
    Cert.KernelIdeal.Hand.maskF (F := Ideal) idx (ix1 n) = ind (Cert.RefSide.hit idx (ix1 n)) := by
  unfold Cert.RefSide.hit
  refine Eq.trans ?_ (ScatterMap.scatter_set_map Cert.ReferenceIdeal.scatter_S16384_S1048576x1_S1048576_n_0_0_1 ind _ _ _ (ix1 n)).symm
  unfold Cert.KernelIdeal.Hand.maskF
  have hA : (broadcastInDim Cert.KernelIdeal.S16384 ![] Cert.KernelIdeal.Facts₀.bcast_S_S16384 (constant (F := Ideal) Cert.KernelIdeal.S_ .f32 0x00000000#32))
      = fun j => ind (broadcastInDim Cert.ReferenceIdeal.S16384 ![] Cert.ReferenceIdeal.Facts₀.bcast_S_S16384 (constantI Cert.ReferenceIdeal.S_ 1 0#1) j) :=
    funext fun j => by
      show Ideal.ofBits .f32 0x00000000#32 = ind 0#1
      rw [Ideal.ofBits_zero_f32]; exact (if_neg (by decide)).symm
  have hB : (broadcastInDim Cert.KernelIdeal.S1048576 ![] Cert.KernelIdeal.Facts₀.bcast_S_S1048576 (constant (F := Ideal) Cert.KernelIdeal.S_ .f32 0x3F800000#32))
      = fun j => ind (broadcastInDim Cert.ReferenceIdeal.S1048576 ![] Cert.ReferenceIdeal.Facts₀.bcast_S_S1048576 (constantI Cert.ReferenceIdeal.S_ 1 1#1) j) :=
    funext fun j => by
      show Ideal.ofBits .f32 0x3F800000#32 = ind 1#1
      rw [Ideal.ofBits_one_f32]; exact (if_pos rfl).symm
  rw [hA, hB]
  rfl

open Cert.KernelIdeal Cert.KernelIdeal.Hand in
/-- The reference's result term, of the kernel program's argument arrays, is the kernel's result array. -/
theorem result_eq (m : (ℓ : Loc Cert.KernelIdeal.nD Cert.KernelIdeal.τ Cert.KernelIdeal.sig) → Buf (Elt Ideal) ℓ) (c : Dev Cert.KernelIdeal.nD)
    (T : FVec Ideal Cert.KernelIdeal.S512x16384 .f32)
    (hT : ∀ (b : Fin 512) (n : Fin 16384), T (ix2 b n) = if Cert.RefSide.hit (argI m c) (ix1 n) = 1#1 then ∑ r : Fin 128, (∑ k : Fin 16384, argX m c (ix2 b k) * argU m c (ix2 k r)) * argV m c (ix2 n r) else 0) :
    T = outK m c := by
  funext i
  obtain ⟨b, n, rfl⟩ : ∃ (b : Fin 512) (n : Fin 16384), i = ix2 b n := ⟨i 0, i 1, eq_ix2 i⟩
  rw [hT b n, kernel_value m c b n]
  unfold Gkc
  rw [maskF_eq]
  unfold ind
  by_cases hh : Cert.RefSide.hit (argI m c) (ix1 n) = 1#1
  · rw [if_pos hh, if_pos hh, mul_one]
  · rw [if_neg hh, if_neg hh, mul_zero]

end Cert.Final

end
-- ==== Proof.lean ====
/-
  The certificate of a masked low-rank product. The kernel computes `pre = x · U` on the matrix unit, accumulated over
  eight bands of the contracted axis in a scratch accumulator, then `(pre · Vᵀ) · mask` band by band of the output's
  columns, `mask` the float column mask the host scatters from the column indices; the reference computes
  `where(hit, (x · U) · Vᵀ, 0)` with the boolean column mask. Both programs terminate without faulting and leave
  their arguments unchanged (each program's run, read back); the idealized kernel is the kernel's own text (no
  rewrite was applied); and at the ideal values both results are one function of the arguments: a sum taken band
  by band is the whole sum, a change of float format is the identity, and multiplying by a mask of zeros and ones
  selects the product or zero on every extended real.
-/
import proofs.«171692_j26250840113208_1_alg».proof.Defs
import proofs.«171692_j26250840113208_1_alg».proof.Proof.Gen.Kernel
import proofs.«171692_j26250840113208_1_alg».proof.Proof.Gen.Kernel.Skeleton
import proofs.«171692_j26250840113208_1_alg».proof.Proof.Gen.Kernel.Launch
import proofs.«171692_j26250840113208_1_alg».proof.Proof.Gen.Kernel.Regions
import proofs.«171692_j26250840113208_1_alg».proof.Proof.Gen.Kernel.Points
import proofs.«171692_j26250840113208_1_alg».proof.Proof.Gen.KernelIdeal
import proofs.«171692_j26250840113208_1_alg».proof.Proof.Gen.KernelIdeal.Skeleton
import proofs.«171692_j26250840113208_1_alg».proof.Proof.Gen.KernelIdeal.Launch
import proofs.«171692_j26250840113208_1_alg».proof.Proof.Gen.KernelIdeal.Regions
import proofs.«171692_j26250840113208_1_alg».proof.Proof.Gen.KernelIdeal.Points
import proofs.«171692_j26250840113208_1_alg».proof.Proof.Gen.ReferenceIdeal
import proofs.«171692_j26250840113208_1_alg».proof.Proof.Gen.Pre_finite_inputs
import proofs.«171692_j26250840113208_1_alg».proof.Proof.KRun
import proofs.«171692_j26250840113208_1_alg».proof.Proof.KIRun
import proofs.«171692_j26250840113208_1_alg».proof.Proof.Final
import Idealize.ShloMosaic.Adequacy
import Idealize.ShloMosaic.Init

noncomputable section

namespace Cert.Proof

open Idealize.ShloMosaic Idealize.SL.Sem Idealize.ShloMosaic.ValueIdx

/-- The kernel as printed runs to the end, faults nowhere and leaves its arguments as launched. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs run and end with the same result array: the
    kernel's is what its second pipeline's write-backs leave, the reference's its operations' composed term, and the
    two are one function of the arguments. -/
theorem algebraic : Cert.algebraic_KernelIdeal_ReferenceIdeal := by
  intro m ρ m' ρ' _ hagree
  refine ⟨fun c => Cert.KernelIdeal.Hand.outK m c, Cert.KernelIdeal.Hand.run_main (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.2]
  exact Cert.Final.result_eq m c _ (fun b n => Cert.RefSide.ref_apply _ _ _ _ b n)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
